-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S600000x1 : Shape := ⟨2, ![600000, 1]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg8 : FVec F S3x128 .f32) (main_arg9 : FVec F S3x128x128 .f32) (main_arg10 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg9
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg5 : FVec F S1x128 .f32) (main_arg6 : FVec F S128 .f32) (main_arg7 : FVec F S3x128x128 .f32) (main_arg8 : FVec F S3x128 .f32) (main_arg9 : FVec F S3x128x128 .f32) (main_arg10 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x600000 32) (main_arg2 : FVec F S600000x1 .f32) (main_arg3 : FVec F S64x128 .f32) (main_arg4 : FVec F S128 .f32) (main_arg5 : FVec F S1x128 .f32) (main_arg6 : FVec F S128 .f32) (main_arg7 : FVec F S3x128x128 .f32) (main_arg8 : FVec F S3x128 .f32) (main_arg9 : FVec F S3x128x128 .f32) (main_arg10 : FVec F S3x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x600000 : Shape := ⟨2, ![2, 600000]⟩
abbrev S600000x1 : Shape := ⟨2, ![600000, 1]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S50000x128 : Shape := ⟨2, ![50000, 128]⟩
abbrev S5000x64 : Shape := ⟨2, ![5000, 64]⟩
abbrev S5000x128 : Shape := ⟨2, ![5000, 128]⟩
abbrev S600000x128 : Shape := ⟨2, ![600000, 128]⟩
abbrev S8000x1 : Shape := ⟨2, ![8000, 1]⟩
abbrev S8000x128 : Shape := ⟨2, ![8000, 128]⟩
abbrev S1x600000 : Shape := ⟨2, ![1, 600000]⟩
abbrev S600000 : Shape := ⟨1, ![600000]⟩
abbrev S_ : Shape := ⟨0, ![]⟩
abbrev S1x128x128 : Shape := ⟨3, ![1, 128, 128]⟩
abbrev S128x128 : Shape := ⟨2, ![128, 128]⟩

abbrev nBuf : Space → Nat
  | .hbm => 94
  | .vmem => 60
  | .smem => 0
  | _ => 0

abbrev bufTy : (tb : Table) → Fin (tcTables nBuf tb) → BufTy
  | .hbm, ⟨0, _⟩ => ⟨S50000x64, .f32⟩
  | .hbm, ⟨1, _⟩ => ⟨S2x600000, .i32⟩
  | .hbm, ⟨2, _⟩ => ⟨S600000x1, .f32⟩
  | .hbm, ⟨3, _⟩ => ⟨S64x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S3x128x128, .f32⟩
  | .hbm, ⟨10, _⟩ => ⟨S3x128, .f32⟩
  | .hbm, ⟨11, _⟩ => ⟨S1x128, .f32⟩
  | .hbm, ⟨12, _⟩ => ⟨S1x128, .f32⟩
  | .hbm, ⟨13, _⟩ => ⟨S50000x128, .f32⟩
  | .hbm, ⟨14, _⟩ => ⟨S600000x128, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S1x128x128, .f32⟩
  | .hbm, ⟨39, _⟩ => ⟨S128x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S1x128x128, .f32⟩
  | .hbm, ⟨84, _⟩ => ⟨S128x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128x128, .f32⟩
  | .hbm, ⟨89, _⟩ => ⟨S128x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8000x1, .f32⟩
  | .local _ .vmem, ⟨7, _⟩ => ⟨S8000x1, .f32⟩
  | .local _ .vmem, ⟨8, _⟩ => ⟨S1x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S8000x128, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S8000x128, .f32⟩
  | .local _ .vmem, ⟨33, _⟩ => ⟨S8000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S8000x128, .f32⟩
  | .local _ .vmem, ⟨45, _⟩ => ⟨S8000x128, .f32⟩
  | .local _ .vmem, ⟨46, _⟩ => ⟨S8000x128, .f32⟩
  | .local _ .vmem, ⟨47, _⟩ => ⟨S8000x128, .f32⟩
  | .local _ .vmem, ⟨48, _⟩ => ⟨S8000x128, .f32⟩
  | .local _ .vmem, ⟨49, _⟩ => ⟨S8000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_1 : Ref sig .tc := ⟨.hbm, 44, rfl⟩
abbrev main_v30 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_4 : Ref sig .tc := ⟨.hbm, 69, rfl⟩
abbrev main_v52 : Ref sig .tc := ⟨.hbm, 70, rfl⟩
abbrev main_v53 : Ref sig .tc := ⟨.hbm, 71, rfl⟩
abbrev main_c_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![75], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S8000x1_S8000x1_0_0 : ∀ a, (![0, 0] : Fin 2 → Nat) a + S8000x1.size a ≤ S8000x1.size a
  h_S8000x1 : 0 < S8000x1.numel
  broadcasts_S8000x1_S8000x128 : S8000x1.Broadcasts S8000x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S8000x128_S8000x128 : S8000x128.ShapeCasts S8000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x64_S64x128_S5000x128_1_0_0_1_n_n_wf : DotDims.WF S5000x64 S64x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S600000x1.size a
  hwx1_0 : ∀ i : grid1.Coords, EltTy.bits .f32 = 32 ∨ (Rect.block (s := S600000x1) S8000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S600000x128.size a
  hwx1_3 : ∀ i : grid1.Coords, EltTy.bits .f32 = 32 ∨ (Rect.block (s := S600000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S600000x128.size a
  hwx2_0 : ∀ i : grid2.Coords, EltTy.bits .f32 = 32 ∨ (Rect.block (s := S600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S600000x128.size a
  hwx2_1 : ∀ i : grid2.Coords, EltTy.bits .f32 = 32 ∨ (Rect.block (s := S600000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S600000x128.size a
  hwx2_2 : ∀ i : grid2.Coords, EltTy.bits .f32 = 32 ∨ (Rect.block (s := S600000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S600000x128.size a
  hwx4_0 : ∀ i : grid4.Coords, EltTy.bits .f32 = 32 ∨ (Rect.block (s := S600000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S600000x128.size a
  hwx4_1 : ∀ i : grid4.Coords, EltTy.bits .f32 = 32 ∨ (Rect.block (s := S600000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S600000x128.size a
  hwx4_2 : ∀ i : grid4.Coords, EltTy.bits .f32 = 32 ∨ (Rect.block (s := S600000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x128.size a ≤ S600000x128.size a
  hwx6_0 : ∀ i : grid6.Coords, EltTy.bits .f32 = 32 ∨ (Rect.block (s := S600000x128) S8000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x128.size a ≤ S600000x128.size a
  hwx6_1 : ∀ i : grid6.Coords, EltTy.bits .f32 = 32 ∨ (Rect.block (s := S600000x128) S8000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x128.size a ≤ S600000x128.size a
  hwx6_2 : ∀ i : grid6.Coords, EltTy.bits .f32 = 32 ∨ (Rect.block (s := S600000x128) S8000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S50000x128.size a
  hwx7_6 : ∀ i : grid7.Coords, EltTy.bits .f32 = 32 ∨ (Rect.block (s := S50000x128) S5000x128.size (cc7_transform_6 i) (hinb7_6 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v29) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v36) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v29) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v47) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v50) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v51) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v58) S8000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S8000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v59) S8000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v51) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v64) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v67) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v69) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v72) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v73) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x600000 : Shape := ⟨2, ![2, 600000]⟩
abbrev S600000x1 : Shape := ⟨2, ![600000, 1]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S50000x128 : Shape := ⟨2, ![50000, 128]⟩
abbrev S600000x128 : Shape := ⟨2, ![600000, 128]⟩
abbrev S1x600000 : Shape := ⟨2, ![1, 600000]⟩
abbrev S600000 : Shape := ⟨1, ![600000]⟩
abbrev S_ : Shape := ⟨0, ![]⟩
abbrev S1x128x128 : Shape := ⟨3, ![1, 128, 128]⟩
abbrev S128x128 : Shape := ⟨2, ![128, 128]⟩

abbrev nBuf : Space → Nat
  | .hbm => 143
  | .vmem => 0
  | .smem => 0
  | _ => 0

abbrev hbmTy0_0 (i : Nat) : BufTy := match i % 128 with
  | 0 => ⟨S50000x64, .f32⟩
  | 1 => ⟨S2x600000, .i32⟩
  | 2 => ⟨S600000x1, .f32⟩
  | 3 => ⟨S64x128, .f32⟩
  | 4 => ⟨S128, .f32⟩
  | 5 => ⟨S1x128, .f32⟩
  | 6 => ⟨S128, .f32⟩
  | 7 => ⟨S3x128x128, .f32⟩
  | 8 => ⟨S3x128, .f32⟩
  | 9 => ⟨S3x128x128, .f32⟩
  | 10 => ⟨S3x128, .f32⟩
  | 11 => ⟨S50000x128, .f32⟩
  | 12 => ⟨S1x128, .f32⟩
  | 13 => ⟨S50000x128, .f32⟩
  | 14 => ⟨S50000x128, .f32⟩
  | 15 => ⟨S600000x128, .f32⟩
  | 16 => ⟨S1x128, .f32⟩
  | 17 => ⟨S600000x128, .f32⟩
  | 18 => ⟨S600000x128, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x128, .f32⟩
  | 33 => ⟨S_, .f32⟩
  | 34 => ⟨S600000x128, .f32⟩
  | 35 => ⟨S600000x128, .f32⟩
  | 36 => ⟨S_, .f32⟩
  | 37 => ⟨S50000x128, .f32⟩
  | 38 => ⟨S600000x1, .i32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S50000x128, .f32⟩
  | 81 => ⟨S1x128x128, .f32⟩
  | 82 => ⟨S128x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S600000x128, .f32⟩
  | 113 => ⟨S_, .f32⟩
  | 114 => ⟨S600000x128, .f32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x64, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call2_cst : Ref sig .tc := ⟨.hbm, 60, rfl⟩
abbrev main_call2_v0 : Ref sig .tc := ⟨.hbm, 61, rfl⟩
abbrev main_v42 : Ref sig .tc := ⟨.hbm, 62, rfl⟩
abbrev main_c_1 : Ref sig .tc := ⟨.hbm, 63, rfl⟩
abbrev main_v43 : Ref sig .tc := ⟨.hbm, 64, rfl⟩
abbrev main_v44 : Ref sig .tc := ⟨.hbm, 65, rfl⟩
abbrev main_c_2 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call3_cst : Ref sig .tc := ⟨.hbm, 73, rfl⟩
abbrev main_call3_v0 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call4_cst : Ref sig .tc := ⟨.hbm, 89, rfl⟩
abbrev main_call4_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call5_cst : Ref sig .tc := ⟨.hbm, 100, rfl⟩
abbrev main_call5_v0 : Ref sig .tc := ⟨.hbm, 101, rfl⟩
abbrev main_v73 : Ref sig .tc := ⟨.hbm, 102, rfl⟩
abbrev main_c_4 : Ref sig .tc := ⟨.hbm, 103, rfl⟩
abbrev main_v74 : Ref sig .tc := ⟨.hbm, 104, rfl⟩
abbrev main_v75 : Ref sig .tc := ⟨.hbm, 105, rfl⟩
abbrev main_c_5 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call6_cst : Ref sig .tc := ⟨.hbm, 113, rfl⟩
abbrev main_call6_v0 : Ref sig .tc := ⟨.hbm, 114, rfl⟩
abbrev main_v82 : Ref sig .tc := ⟨.hbm, 115, rfl⟩
abbrev main_cst_6 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call7_cst : Ref sig .tc := ⟨.hbm, 129, rfl⟩
abbrev main_call7_v0 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_call8_cst : Ref sig .tc := ⟨.hbm, 140, rfl⟩
abbrev main_call8_v0 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x64_S64x128_S50000x128_1_0_0_1_n_n_wf : DotDims.WF S50000x64 S64x128 S50000x128 [1] [0] [0] [1] [] []
  dot_S600000x1_S1x128_S600000x128_1_0_0_1_n_n_wf : DotDims.WF S600000x1 S1x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S600000x1_S1x128_S600000x128_1_0_0_1_n_n : DotDims S600000x1 S1x128 S600000x128 where
  lhsContracting := [1]
  rhsContracting := [0]
  lhsNonContracting := [0]
  rhsNonContracting := [1]
  lhsBatch := []
  rhsBatch := []
  wf := dot_S600000x1_S1x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its RESULT named.

  @main is fifteen segments: seven stretches of host operations and eight kernel regions. The library's theorem for
  such a program runs the segments in order from the launch memory; every unscoped buffer of a core ends at the
  last boundary's contents, the fold `W15` of the whole program over the launch memory. Read at the result buffer and
  at the eleven argument buffers this gives: every weakly fair execution terminates, the result holds `W15` at its
  buffer, and the arguments are as launched.
-/
import proofs.«171168_j16716012716418_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the theorem's implicit arguments are found by unifying its conclusion with this statement, which takes unfolding
-- plain definitions in a metavariable's type
set_option backward.isDefEq.respectTransparency.types false in
/-- Every weakly fair execution of @main terminates, nothing faulting; the result buffer ends at the last boundary's
    contents and the argument buffers as launched. -/
theorem run_result : θ_run defs (onTc (τ := τ) (main (F := F))) ⟨m, fun _ => 0, ρ⟩ (fun r => ∀ c : Dev nD,
      r.2.mem ((c.tc : Thread nD τ).loc main_v73) = W15 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core takes a ghost resource of its own
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      -- each core: its unscoped buffers at the launch memory, its generator register, and nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      -- the last thread state holds every unscoped buffer at `W15`: read them all against the final state
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v73 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.Whole

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibDenseLayers.lean ====
/-
  Dense layers on rank-two arrays of extended reals, and their two spellings.

  * The functions: `affine` (every row of `x` through a matrix and a bias row, `y[p, q] = Σ_k x[p, k] · w[k, q] + b[0, q]`),
    `scaleRows` (a column times a weight row plus a bias row: an affine map whose contraction axis has length one),
    `relu`, the message `relu (g + e)` and the two-layer update `relu (affine (relu (affine (x + agg) W1 b1)) W2 b2)`.
    Each is computed row by row: rows `o, o + 1, …` of the result depend only on the same rows of the row-indexed
    operands (`affine_rows`, `scaleRows_rows`, `update_rows`), which is what lets a kernel that walks the rows in
    blocks produce the whole array.
  * A kernel body's spelling of a layer — a plain product of bf16 operands into the zero accumulator, a bias row spread
    over the rows, the maximum with the zero word — is `relu (affine …)` (`reluLayer`); a column spread over the lanes
    reads the column (`broadcastTo_a1_ab_apply`), a bias row cast to its own shape and spread over the rows reads the
    row (`biasRow_apply`).
  * A host program's spelling — a plain `dot_general`, a bias vector broadcast to one row and then over the rows, the
    maximum with a broadcast zero — is the same function with the bias as one row (`hostAffine`, `hostReluAffine`).
  All over abstract extents, at the ideal values.
-/
import Idealize.ShloMosaic.PureOps.Ideal.Laws
import Idealize.ShloMosaic.Lib.ValueIdx
import Idealize.ShloMosaic.Lib.Pipeline.Value
import Idealize.ShloMosaic.Lib.ValueLayout
import proofs.«171168_j16716012716418_1_alg».proof.Proof.LibRowOps

noncomputable section

open scoped BigOperators

namespace Cert.Gnn

open Idealize.ShloMosaic Idealize.ShloMosaic.ValueIdx Cert.Lib.RowOps

/-! ## The functions -/

/-- An array of extended reals of shape `[a, b]`. -/
abbrev Mat (a b : Nat) : Type := (⟨2, ![a, b]⟩ : Shape).Idx → EReal

/-- Rows of `x` through a matrix and a bias row. -/
def affine (M K N : Nat) (x : Mat M K) (w : Mat K N) (b : Mat 1 N) : Mat M N :=
  fun i => (∑ k : Fin K, x (ix2 (i 0) k) * w (ix2 k (i 1))) + b (ix2 (0 : Fin 1) (i 1))

theorem affine_ix2 (M K N : Nat) (x : Mat M K) (w : Mat K N) (b : Mat 1 N) (p : Fin M) (q : Fin N) :
    affine M K N x w b (ix2 p q) = (∑ k : Fin K, x (ix2 p k) * w (ix2 k q)) + b (ix2 (0 : Fin 1) q) := rfl

/-- A column times a weight row plus a bias row. -/
def scaleRows (M N : Nat) (a : Mat M 1) (w : Mat 1 N) (b : Mat 1 N) : Mat M N :=
  fun i => a (ix2 (i 0) (0 : Fin 1)) * w (ix2 (0 : Fin 1) (i 1)) + b (ix2 (0 : Fin 1) (i 1))

theorem scaleRows_ix2 (M N : Nat) (a : Mat M 1) (w : Mat 1 N) (b : Mat 1 N) (p : Fin M) (q : Fin N) :
    scaleRows M N a w b (ix2 p q) = a (ix2 p (0 : Fin 1)) * w (ix2 (0 : Fin 1) q) + b (ix2 (0 : Fin 1) q) := rfl

/-- The positive part, entry by entry. -/
def relu {s : Shape} (z : s.Idx → EReal) : s.Idx → EReal := fun i => max (z i) 0

/-- The message on an edge: the positive part of the source node's features plus the edge's. -/
def message {s : Shape} (g e : s.Idx → EReal) : s.Idx → EReal := relu fun i => g i + e i

/-- A node's update from its features and its aggregated messages: two affine maps, each followed by `relu`. -/
def update (M H : Nat) (x agg : Mat M H) (w1 : Mat H H) (b1 : Mat 1 H) (w2 : Mat H H) (b2 : Mat 1 H) : Mat M H :=
  relu (affine M H H (relu (affine M H H (fun i => x i + agg i) w1 b1)) w2 b2)

/-! ## Row by row -/

/-- Row `p` of the block of rows that `r` selects is row `r p` of the whole. -/
theorem affine_rows (M m K N : Nat) (x : Mat M K) (w : Mat K N) (b : Mat 1 N) (r : Fin m → Fin M)
    (j : (⟨2, ![m, N]⟩ : Shape).Idx) :
    affine m K N (fun y => x (ix2 (r (y 0)) (y 1))) w b j = affine M K N x w b (ix2 (r (j 0)) (j 1)) := rfl

theorem scaleRows_rows (M m N : Nat) (a : Mat M 1) (w : Mat 1 N) (b : Mat 1 N) (r : Fin m → Fin M)
    (j : (⟨2, ![m, N]⟩ : Shape).Idx) :
    scaleRows m N (fun y => a (ix2 (r (y 0)) (y 1))) w b j = scaleRows M N a w b (ix2 (r (j 0)) (j 1)) := rfl

theorem update_rows (M m H : Nat) (x agg : Mat M H) (w1 : Mat H H) (b1 : Mat 1 H) (w2 : Mat H H) (b2 : Mat 1 H)
    (r : Fin m → Fin M) (j : (⟨2, ![m, H]⟩ : Shape).Idx) :
    update m H (fun y => x (ix2 (r (y 0)) (y 1))) (fun y => agg (ix2 (r (y 0)) (y 1))) w1 b1 w2 b2 j
      = update M H x agg w1 b1 w2 b2 (ix2 (r (j 0)) (j 1)) := rfl

/-! ## A kernel body's spelling -/

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One bias row spread over `a` rows, in the body's spelling (a shape cast to the same shape, then a broadcast). -/
theorem biasRow_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix2 (0 : Fin 1) c) := by
  rw [broadcastTo_1b_ab_apply, shapeCast_self]

/-- The zero the bodies compare with. -/
theorem zero_word : Scalar.ofBits (F := Ideal) .f32 0x00000000#32 = (0 : EReal) := Ideal.ofBits_zero_f32

/-- One layer as the node update's body spells it: a plain product into the zero accumulator, plus a bias row spread
    over the rows, then the maximum with the zero word — `relu` of `affine`. -/
theorem reluLayer (M K N : Nat) (x : Mat M K) (w : Mat K N) (b : Mat 1 N)
    (h2 : (⟨2, ![1, N]⟩ : Shape).Broadcasts ⟨2, ![M, N]⟩) :
    (fun j => max (FloatOps.matmul (F := Ideal) (φ₁ := .bf16) (φ₂ := .bf16) (DotDims.plain M K N) none x w
          (constant ⟨2, ![M, N]⟩ .f32 0x00000000#32) j
        + broadcastTo ⟨2, ![M, N]⟩ b h2 j) (Scalar.ofBits (F := Ideal) .f32 0x00000000#32))
      = relu (affine M K N x w b) := by
  funext j
  obtain ⟨p, q, rfl⟩ : ∃ (p : Fin M) (q : Fin N), j = ix2 p q := ⟨j 0, j 1, eq_ix2 j⟩
  show max _ _ = max _ 0
  rw [zero_word, matmul_zero_apply, broadcastTo_1b_ab_apply]
  rfl

/-! ## A host program's spelling -/

/-- A `dot_general` plus a bias vector broadcast over the rows, read at every index: `affine` with the bias as one row. -/
theorem hostAffine (M K N : Nat) (x : Mat M K) (w : Mat K N) (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    (fun j => FloatOps.dotGeneral (F := Ideal) (φ₁ := .f32) (φ₂ := .f32) (DotDims.plain M K N) none .single x w j
        + broadcastInDim ⟨2, ![M, N]⟩ ![0, 1] h2 (broadcastInDim ⟨2, ![1, N]⟩ ![1] h1 b) j)
      = affine M K N x w (shapeCast ⟨2, ![1, N]⟩ b hc) := by
  funext j
  obtain ⟨p, q, rfl⟩ : ∃ (p : Fin M) (q : Fin N), j = ix2 p q := ⟨j 0, j 1, eq_ix2 j⟩
  rw [dotGeneral_apply, bcastRow_bcast_apply, affine_ix2, shapeCast_a_1a_apply]

/-- The same followed by `relu` in the host's spelling. -/
theorem hostReluAffine (M K N : Nat) (x : Mat M K) (w : Mat K N) (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    (fun j => max (FloatOps.dotGeneral (F := Ideal) (φ₁ := .f32) (φ₂ := .f32) (DotDims.plain M K N) none .single x w j
        + broadcastInDim ⟨2, ![M, N]⟩ ![0, 1] h2 (broadcastInDim ⟨2, ![1, N]⟩ ![1] h1 b) j)
        (broadcastInDim ⟨2, ![M, N]⟩ ![] h0 (constant (F := Ideal) ⟨0, ![]⟩ .f32 0x00000000#32) j))
      = relu (affine M K N x w (shapeCast ⟨2, ![1, N]⟩ b hc)) := by
  rw [← hostAffine M K N x w b h1 h2 hc]
  funext j
  show max _ _ = max _ 0
  rw [splat_apply, Ideal.ofBits_zero_f32]

end Cert.Gnn

end
-- ==== Proof.KNet.lean ====
/-
  The network as one function of the eleven argument arrays.

  `x0` is the input projection of the node features, `edges` the projection of the edge attributes. A layer gathers
  each edge's source node's features (a negative node number counts from the end), adds the edge's features, takes the
  positive part, adds the messages up at each edge's target node, and passes node features plus aggregate through the
  two-layer update. The result is three layers over `x0`, with the three slices of the stacked weights and biases.
  The gather, the sum at the target nodes and the index arithmetic are named here and never opened.
-/
import proofs.«171168_j16716012716418_1_alg».proof.Proof.Gen.KernelIdeal
import proofs.«171168_j16716012716418_1_alg».proof.Proof.LibDenseLayers

noncomputable section

namespace Cert.KernelIdeal.Net

open Cert.KernelIdeal Cert.KernelIdeal.Facts₀ Cert.KernelIdeal.Facts Idealize.ShloMosaic Idealize.ShloMosaic.ValueIdx Cert.Gnn

/-- A bias vector as one row. -/
def biasRow (b : Vec Ideal S128 .f32) : Vec Ideal S1x128 .f32 := shapeCast S1x128 b shapeCasts_S128_S1x128

/-- The projected node features. -/
def x0 (a0 : Vec Ideal S50000x64 .f32) (a3 : Vec Ideal S64x128 .f32) (a4 : Vec Ideal S128 .f32) : Vec Ideal S50000x128 .f32 :=
  affine 50000 64 128 a0 a3 (biasRow a4)

/-- The projected edge features. -/
def edges (a2 : Vec Ideal S600000x1 .f32) (a5 : Vec Ideal S1x128 .f32) (a6 : Vec Ideal S128 .f32) : Vec Ideal S600000x128 .f32 :=
  scaleRows 600000 128 a2 a5 (biasRow a6)

/-- Every edge's source node (row 0 of the edge list). -/
def src (a1 : IVec S2x600000 32) : IVec S600000 32 :=
  shapeCast S600000 (extractStridedSlice S1x600000 ![0, 0] a1 slices_S2x600000_S1x600000_0_0) shapeCasts_S1x600000_S600000

/-- Every edge's target node (row 1 of the edge list). -/
def dst (a1 : IVec S2x600000 32) : IVec S600000 32 :=
  shapeCast S600000 (extractStridedSlice S1x600000 ![1, 0] a1 slices_S2x600000_S1x600000_1_0) shapeCasts_S1x600000_S600000

/-- The gather's start indices: the source nodes, a negative one counted from the end of the 50000 nodes. -/
def srcIdx (a1 : IVec S2x600000 32) : IVec S600000x1 32 :=
  broadcastInDim S600000x1 ![0] bcast_S600000_S600000x1_0
    (select (cmpi .slt (src a1) (broadcastInDim S600000 ![] bcast_S_S600000 (constantI S_ 32 0#32)))
      (addi (src a1) (broadcastInDim S600000 ![] bcast_S_S600000 (constantI S_ 32 50000#32))) (src a1))

/-- The scatter's indices: the target nodes. -/
def dstIdx (a1 : IVec S2x600000 32) : IVec S600000x1 32 :=
  broadcastInDim S600000x1 ![0] bcast_S600000_S600000x1_0 (dst a1)

/-- The array of zeros the messages are added into. -/
def zeros : Vec Ideal S50000x128 .f32 :=
  broadcastInDim S50000x128 ![] bcast_S_S50000x128 (constant (F := Ideal) S_ .f32 0x00000000#32)

/-- The features of each edge's source node. -/
def gathered (a1 : IVec S2x600000 32) (x : Vec Ideal S50000x128 .f32) : Vec Ideal S600000x128 .f32 :=
  Host.gather gather_S50000x128_S600000x1_S600000x128_1_0_n_n_0_1_1128 x (srcIdx a1)

/-- The messages added up at each edge's target node. -/
def aggregated (a1 : IVec S2x600000 32) (msg : Vec Ideal S600000x128 .f32) : Vec Ideal S50000x128 .f32 :=
  Host.scatterAdd (F := Ideal) (φ := .f32) scatter_S50000x128_S600000x1_S600000x128_1_0_0_1 zeros (dstIdx a1) msg

/-- One layer of message passing. -/
def layer (a1 : IVec S2x600000 32) (ee : Vec Ideal S600000x128 .f32) (x : Vec Ideal S50000x128 .f32)
    (w1 : Vec Ideal S128x128 .f32) (b1 : Vec Ideal S1x128 .f32) (w2 : Vec Ideal S128x128 .f32) (b2 : Vec Ideal S1x128 .f32) :
    Vec Ideal S50000x128 .f32 :=
  update 50000 128 x (aggregated a1 (message (gathered a1 x) ee)) w1 b1 w2 b2

/-- Layer 1's weight matrix out of a stack of three. -/
def wmat0 (a : Vec Ideal S3x128x128 .f32) : Vec Ideal S128x128 .f32 :=
  shapeCast S128x128 (extractStridedSlice S1x128x128 ![0, 0, 0] a slices_S3x128x128_S1x128x128_0_0_0) shapeCasts_S1x128x128_S128x128

/-- Layer 1's bias out of a stack of three, as one row. -/
def brow0 (a : Vec Ideal S3x128 .f32) : Vec Ideal S1x128 .f32 :=
  shapeCast S1x128 (shapeCast S128 (extractStridedSlice S1x128 ![0, 0] a slices_S3x128_S1x128_0_0) shapeCasts_S1x128_S128) shapeCasts_S128_S1x128

/-- Layer 2's weight matrix out of a stack of three. -/
def wmat1 (a : Vec Ideal S3x128x128 .f32) : Vec Ideal S128x128 .f32 :=
  shapeCast S128x128 (extractStridedSlice S1x128x128 ![1, 0, 0] a slices_S3x128x128_S1x128x128_1_0_0) shapeCasts_S1x128x128_S128x128

/-- Layer 2's bias out of a stack of three, as one row. -/
def brow1 (a : Vec Ideal S3x128 .f32) : Vec Ideal S1x128 .f32 :=
  shapeCast S1x128 (shapeCast S128 (extractStridedSlice S1x128 ![1, 0] a slices_S3x128_S1x128_1_0) shapeCasts_S1x128_S128) shapeCasts_S128_S1x128

/-- Layer 3's weight matrix out of a stack of three. -/
def wmat2 (a : Vec Ideal S3x128x128 .f32) : Vec Ideal S128x128 .f32 :=
  shapeCast S128x128 (extractStridedSlice S1x128x128 ![2, 0, 0] a slices_S3x128x128_S1x128x128_2_0_0) shapeCasts_S1x128x128_S128x128

/-- Layer 3's bias out of a stack of three, as one row. -/
def brow2 (a : Vec Ideal S3x128 .f32) : Vec Ideal S1x128 .f32 :=
  shapeCast S1x128 (shapeCast S128 (extractStridedSlice S1x128 ![2, 0] a slices_S3x128_S1x128_2_0) shapeCasts_S1x128_S128) shapeCasts_S128_S1x128

/-- The network: three layers over the projected node features. -/
def out (a0 : Vec Ideal S50000x64 .f32) (a1 : IVec S2x600000 32) (a2 : Vec Ideal S600000x1 .f32) (a3 : Vec Ideal S64x128 .f32)
    (a4 : Vec Ideal S128 .f32) (a5 : Vec Ideal S1x128 .f32) (a6 : Vec Ideal S128 .f32) (a7 : Vec Ideal S3x128x128 .f32)
    (a8 : Vec Ideal S3x128 .f32) (a9 : Vec Ideal S3x128x128 .f32) (a10 : Vec Ideal S3x128 .f32) : Vec Ideal S50000x128 .f32 :=
  layer a1 (edges a2 a5 a6)
    (layer a1 (edges a2 a5 a6)
      (layer a1 (edges a2 a5 a6) (x0 a0 a3 a4) (wmat0 a7) (brow0 a8) (wmat0 a9) (brow0 a10))
      (wmat1 a7) (brow1 a8) (wmat1 a9) (brow1 a10))
    (wmat2 a7) (brow2 a8) (wmat2 a9) (brow2 a10)

end Cert.KernelIdeal.Net

end
-- ==== Proof.KPay.lean ====
/-
  What each kernel body stores, as a function of the blocks it loads, at the ideal values.

  The four bodies are the four layers of the specification at a block's extents: the input projection is `affine` on
  5000 rows (the conversion to bf16 is the identity on extended reals, and a product into a zero accumulator is the
  plain sum over the contraction axis), the edge projection is `scaleRows` on 8000 rows (a column spread over the lanes
  times a row spread over the rows), the combine step is `message`, and the node update is `update` on 5000 rows.
-/
import proofs.«171168_j16716012716418_1_alg».proof.Proof.Gen.KernelIdeal.Skeleton
import proofs.«171168_j16716012716418_1_alg».proof.Proof.LibDenseLayers

noncomputable section

open scoped BigOperators

namespace Cert.KernelIdeal.Pay

open Cert.KernelIdeal Cert.KernelIdeal.Gen Idealize.ShloMosaic Idealize.ShloMosaic.ValueIdx Cert.Gnn Cert.Lib.RowOps

/-- The input projection's body on a block of 5000 rows. -/
theorem inputProj (v0 : Vec Ideal S5000x64 .f32) (v2 : Vec Ideal S64x128 .f32) (v5 : Vec Ideal S1x128 .f32) :
    k0_pay1 (F := Ideal) v0 v2 v5 = affine 5000 64 128 v0 v2 v5 := by
  funext j
  obtain ⟨p, q, rfl⟩ : ∃ (p : Fin 5000) (q : Fin 128), j = ix2 p q := ⟨j 0, j 1, eq_ix2 j⟩
  refine (congrArg₂ (· + ·)
    (matmul_zero_apply 5000 64 128 none (truncf (F := Ideal) .bf16 v0 bitsLt_bf16_f32) (truncf (F := Ideal) .bf16 v2 bitsLt_bf16_f32) p q)
    (biasRow_apply v5 shapeCasts_S1x128_S1x128 broadcasts_S1x128_S5000x128 p q)).trans ?_
  rfl

/-- The edge projection's body on a block of 8000 edges. -/
theorem edgeProj (v0 : Vec Ideal S8000x1 .f32) (v1 : Vec Ideal S1x128 .f32) (v5 : Vec Ideal S1x128 .f32) :
    k1_pay1 (F := Ideal) v0 v1 v5 = scaleRows 8000 128 v0 v1 v5 := by
  funext j
  obtain ⟨p, q, rfl⟩ : ∃ (p : Fin 8000) (q : Fin 128), j = ix2 p q := ⟨j 0, j 1, eq_ix2 j⟩
  refine (congrArg₂ (· + ·)
    (congrArg₂ (· * ·) (broadcastTo_a1_ab_apply v0 broadcasts_S8000x1_S8000x128 p q)
      (broadcastTo_1b_ab_apply v1 broadcasts_S1x128_S8000x128 p q))
    (biasRow_apply v5 shapeCasts_S1x128_S1x128 broadcasts_S1x128_S8000x128 p q)).trans ?_
  rfl

/-- The combine step's body on a block of 8000 edges (layer 1). -/
theorem combine2 (v0 v2 : Vec Ideal S8000x128 .f32) : k2_pay1 (F := Ideal) v0 v2 = message v0 v2 := by
  funext j
  unfold k2_pay1
  rw [shapeCast_self, shapeCast_self]
  show max (v0 j + v2 j) (Scalar.ofBits (F := Ideal) .f32 0x00000000#32) = max (v0 j + v2 j) 0
  rw [zero_word]

/-- The combine step's body (layer 2). -/
theorem combine4 (v0 v2 : Vec Ideal S8000x128 .f32) : k4_pay1 (F := Ideal) v0 v2 = message v0 v2 := by
  funext j
  unfold k4_pay1
  rw [shapeCast_self, shapeCast_self]
  show max (v0 j + v2 j) (Scalar.ofBits (F := Ideal) .f32 0x00000000#32) = max (v0 j + v2 j) 0
  rw [zero_word]

/-- The combine step's body (layer 3). -/
theorem combine6 (v0 v2 : Vec Ideal S8000x128 .f32) : k6_pay1 (F := Ideal) v0 v2 = message v0 v2 := by
  funext j
  unfold k6_pay1
  rw [shapeCast_self, shapeCast_self]
  show max (v0 j + v2 j) (Scalar.ofBits (F := Ideal) .f32 0x00000000#32) = max (v0 j + v2 j) 0
  rw [zero_word]

/-- The node update's body on a block of 5000 nodes (region 3). -/
theorem nodeUpdate3 (v0 v2 : Vec Ideal S5000x128 .f32) (v6 : Vec Ideal S128x128 .f32) (v10 : Vec Ideal S1x128 .f32)
    (v17 : Vec Ideal S128x128 .f32) (v21 : Vec Ideal S1x128 .f32) :
    k3_pay1 (F := Ideal) v0 v2 v6 v10 v17 v21 = update 5000 128 v0 v2 v6 v10 v17 v21 := by
  unfold k3_pay1
  simp only [shapeCast_self]
  show (fun j => max (FloatOps.matmul (F := Ideal) (φ₁ := .bf16) (φ₂ := .bf16) (DotDims.plain 5000 128 128) none
      (fun j' => max (FloatOps.matmul (F := Ideal) (φ₁ := .bf16) (φ₂ := .bf16) (DotDims.plain 5000 128 128) none
          (fun i => v0 i + v2 i) v6 (constant ⟨2, ![5000, 128]⟩ .f32 0x00000000#32) j'
        + broadcastTo ⟨2, ![5000, 128]⟩ v10 broadcasts_S1x128_S5000x128 j') (Scalar.ofBits (F := Ideal) .f32 0x00000000#32))
      v17 (constant ⟨2, ![5000, 128]⟩ .f32 0x00000000#32) j
    + broadcastTo ⟨2, ![5000, 128]⟩ v21 broadcasts_S1x128_S5000x128 j) (Scalar.ofBits (F := Ideal) .f32 0x00000000#32)) = _
  rw [reluLayer 5000 128 128 (fun i => v0 i + v2 i) v6 v10 broadcasts_S1x128_S5000x128, reluLayer]
  rfl

/-- The node update's body on a block of 5000 nodes (region 5). -/
theorem nodeUpdate5 (v0 v2 : Vec Ideal S5000x128 .f32) (v6 : Vec Ideal S128x128 .f32) (v10 : Vec Ideal S1x128 .f32)
    (v17 : Vec Ideal S128x128 .f32) (v21 : Vec Ideal S1x128 .f32) :
    k5_pay1 (F := Ideal) v0 v2 v6 v10 v17 v21 = update 5000 128 v0 v2 v6 v10 v17 v21 := by
  unfold k5_pay1
  simp only [shapeCast_self]
  show (fun j => max (FloatOps.matmul (F := Ideal) (φ₁ := .bf16) (φ₂ := .bf16) (DotDims.plain 5000 128 128) none
      (fun j' => max (FloatOps.matmul (F := Ideal) (φ₁ := .bf16) (φ₂ := .bf16) (DotDims.plain 5000 128 128) none
          (fun i => v0 i + v2 i) v6 (constant ⟨2, ![5000, 128]⟩ .f32 0x00000000#32) j'
        + broadcastTo ⟨2, ![5000, 128]⟩ v10 broadcasts_S1x128_S5000x128 j') (Scalar.ofBits (F := Ideal) .f32 0x00000000#32))
      v17 (constant ⟨2, ![5000, 128]⟩ .f32 0x00000000#32) j
    + broadcastTo ⟨2, ![5000, 128]⟩ v21 broadcasts_S1x128_S5000x128 j) (Scalar.ofBits (F := Ideal) .f32 0x00000000#32)) = _
  rw [reluLayer 5000 128 128 (fun i => v0 i + v2 i) v6 v10 broadcasts_S1x128_S5000x128, reluLayer]
  rfl

/-- The node update's body on a block of 5000 nodes (region 7). -/
theorem nodeUpdate7 (v0 v2 : Vec Ideal S5000x128 .f32) (v6 : Vec Ideal S128x128 .f32) (v10 : Vec Ideal S1x128 .f32)
    (v17 : Vec Ideal S128x128 .f32) (v21 : Vec Ideal S1x128 .f32) :
    k7_pay1 (F := Ideal) v0 v2 v6 v10 v17 v21 = update 5000 128 v0 v2 v6 v10 v17 v21 := by
  unfold k7_pay1
  simp only [shapeCast_self]
  show (fun j => max (FloatOps.matmul (F := Ideal) (φ₁ := .bf16) (φ₂ := .bf16) (DotDims.plain 5000 128 128) none
      (fun j' => max (FloatOps.matmul (F := Ideal) (φ₁ := .bf16) (φ₂ := .bf16) (DotDims.plain 5000 128 128) none
          (fun i => v0 i + v2 i) v6 (constant ⟨2, ![5000, 128]⟩ .f32 0x00000000#32) j'
        + broadcastTo ⟨2, ![5000, 128]⟩ v10 broadcasts_S1x128_S5000x128 j') (Scalar.ofBits (F := Ideal) .f32 0x00000000#32))
      v17 (constant ⟨2, ![5000, 128]⟩ .f32 0x00000000#32) j
    + broadcastTo ⟨2, ![5000, 128]⟩ v21 broadcasts_S1x128_S5000x128 j) (Scalar.ofBits (F := Ideal) .f32 0x00000000#32)) = _
  rw [reluLayer 5000 128 128 (fun i => v0 i + v2 i) v6 v10 broadcasts_S1x128_S5000x128, reluLayer]
  rfl

end Cert.KernelIdeal.Pay

end
-- ==== Proof.Reg0.lean ====
/-
  Region 0 (the input projection), from blocks to the whole array.

  The grid has ten points; point `t` loads rows `5000 t … 5000 t + 4999` of the node features, the whole weight matrix
  and the whole bias row, and writes back the same rows of the result. Since `affine` is computed row by row, what
  point `t` writes back is its block of `affine` of the whole arrays, and the ten blocks tile the 50000 rows.
-/
import proofs.«171168_j16716012716418_1_alg».proof.Proof.Gen.KernelIdeal.Frame
import proofs.«171168_j16716012716418_1_alg».proof.Proof.KPay

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block `t`, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000 t + p` of the array. -/
def rowOf (t : Fin cfg0.N) (p : Fin 5000) : Fin 50000 :=
  ⟨5000 * t.val + p.val, by have ht : t.val < 10 := t.isLt; have := p.isLt; omega⟩

theorem emb0 (t : Fin cfg0.N) (y : S5000x64.Idx) : ((cfg0.win 0).blk t).view.emb y = ix2 (rowOf t (y 0)) (y 1) := by
  obtain ⟨e0, e1, -⟩ := idx_facts t
  funext a; apply Fin.ext
  match a with
  | ⟨0, _⟩ => show win0_0.index t (0 : Fin 2) * 5000 + 1 * (y 0).val = 5000 * t.val + (y 0).val; omega
  | ⟨1, _⟩ => show win0_0.index t (1 : Fin 2) * 64 + 1 * (y 1).val = (y 1).val; omega

theorem emb1 (t : Fin cfg0.N) (y : S64x128.Idx) : ((cfg0.win 1).blk t).view.emb y = y := by
  obtain ⟨-, -, e0, e1, -⟩ := idx_facts t
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

theorem emb2 (t : Fin cfg0.N) (y : S1x128.Idx) : ((cfg0.win 2).blk t).view.emb y = y := by
  obtain ⟨-, -, -, -, e0, e1, -⟩ := idx_facts t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem emb3 (t : Fin cfg0.N) (y : S5000x128.Idx) : ((cfg0.win 3).blk t).view.emb y = ix2 (rowOf t (y 0)) (y 1) := by
  obtain ⟨-, -, -, -, -, -, e0, e1⟩ := idx_facts t
  funext a; apply Fin.ext
  match a with
  | ⟨0, _⟩ => show win0_3.index t (0 : Fin 2) * 5000 + 1 * (y 0).val = 5000 * t.val + (y 0).val; omega
  | ⟨1, _⟩ => show win0_3.index t (1 : Fin 2) * 128 + 1 * (y 1).val = (y 1).val; omega

/-- The blocks point `t` loads, read off the arrays as the region finds them. -/
theorem blk0 (c : Dev nD) (t : Fin cfg0.N) :
    iblk0 V c 0 t = fun y : S5000x64.Idx => V c main_arg0 (ix2 (rowOf t (y 0)) (y 1)) :=
  funext fun y => show V c main_arg0 (((cfg0.win 0).blk t).view.emb y) = _ from congrArg (V c main_arg0) (emb0 t y)

theorem blk1 (c : Dev nD) (t : Fin cfg0.N) : iblk0 V c 1 t = V c main_arg3 :=
  funext fun y => show V c main_arg3 (((cfg0.win 1).blk t).view.emb y) = _ from congrArg (V c main_arg3) (emb1 t y)

theorem blk2 (c : Dev nD) (t : Fin cfg0.N) : iblk0 V c 2 t = V c main_v0 :=
  funext fun y => show V c main_v0 (((cfg0.win 2).blk t).view.emb y) = _ from congrArg (V c main_v0) (emb2 t y)

/-- What point `t` writes back is its block of `affine` of the arrays as the region finds them. -/
theorem flushed_eq (c : Dev nD) (t : Fin cfg0.N) :
    (dat0 V c).flushed 3 t = ((cfg0.win 3).blk t).view.read (Elt Ideal)
      (affine 50000 64 128 (V c main_arg0) (V c main_arg3) (V c main_v0)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S1x128) hz]
  rw [Pay.inputProj, blk0 V c t, blk1 V c t, blk2 V c t]
  funext j
  show affine 5000 64 128 (fun y : S5000x64.Idx => V c main_arg0 (ix2 (rowOf t (y 0)) (y 1))) (V c main_arg3) (V c main_v0) j
    = affine 50000 64 128 (V c main_arg0) (V c main_arg3) (V c main_v0) (((cfg0.win 3).blk t).view.emb j)
  rw [emb3 t j]
  exact affine_rows 50000 5000 64 128 (V c main_arg0) (V c main_arg3) (V c main_v0) (rowOf t) j

/-- An index of the result is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- Row `r` of the result is written by point `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < 10 := by omega
  refine ⟨⟨(i 0).val / 5000, ht⟩, flush0_3 _, ?_⟩
  rw [mem_blk]
  obtain ⟨-, -, -, -, -, -, e0, e1⟩ := idx_facts ⟨(i 0).val / 5000, ht⟩
  have e0' : win0_3.index ⟨(i 0).val / 5000, ht⟩ (0 : Fin 2) = (i 0).val / 5000 := e0
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- The result array after region 0: `affine` of the arrays the region found. -/
theorem final (c : Dev nD) :
    (dat0 V c).arrAt 3 cfg0.N = affine 50000 64 128 (V c main_arg0) (V c main_arg3) (V c main_v0) :=
  (dat0 V c).arrAt_eq_of_cover 3 _ (fun t _ => flushed_eq V c t) cover

end Cert.KernelIdeal.Reg0

end
-- ==== Proof.Reg1.lean ====
/-
  Region 1 (the edge projection), from blocks to the whole array.

  The grid has 75 points; point `t` loads rows `8000 t … 8000 t + 7999` of the edge attributes (one column), the whole
  weight row and the whole bias row, and writes back the same rows of the result. `scaleRows` is computed row by row,
  so what point `t` writes back is its block of `scaleRows` of the whole arrays, and the 75 blocks tile the 600000 rows.
-/
import proofs.«171168_j16716012716418_1_alg».proof.Proof.Gen.KernelIdeal.Frame
import proofs.«171168_j16716012716418_1_alg».proof.Proof.KPay

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block `t`, the others at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `8000 t + p` of the array. -/
def rowOf (t : Fin cfg1.N) (p : Fin 8000) : Fin 600000 :=
  ⟨8000 * t.val + p.val, by have ht : t.val < 75 := t.isLt; have := p.isLt; omega⟩

theorem emb0 (t : Fin cfg1.N) (y : S8000x1.Idx) : ((cfg1.win 0).blk t).view.emb y = ix2 (rowOf t (y 0)) (y 1) := by
  obtain ⟨e0, e1, -⟩ := idx_facts t
  funext a; apply Fin.ext
  match a with
  | ⟨0, _⟩ => show win1_0.index t (0 : Fin 2) * 8000 + 1 * (y 0).val = 8000 * t.val + (y 0).val; omega
  | ⟨1, _⟩ => show win1_0.index t (1 : Fin 2) * 1 + 1 * (y 1).val = (y 1).val; omega

theorem emb1 (t : Fin cfg1.N) (y : S1x128.Idx) : ((cfg1.win 1).blk t).view.emb y = y := by
  obtain ⟨-, -, e0, e1, -⟩ := idx_facts t
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

theorem emb2 (t : Fin cfg1.N) (y : S1x128.Idx) : ((cfg1.win 2).blk t).view.emb y = y := by
  obtain ⟨-, -, -, -, e0, e1, -⟩ := idx_facts t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem emb3 (t : Fin cfg1.N) (y : S8000x128.Idx) : ((cfg1.win 3).blk t).view.emb y = ix2 (rowOf t (y 0)) (y 1) := by
  obtain ⟨-, -, -, -, -, -, e0, e1⟩ := idx_facts t
  funext a; apply Fin.ext
  match a with
  | ⟨0, _⟩ => show win1_3.index t (0 : Fin 2) * 8000 + 1 * (y 0).val = 8000 * t.val + (y 0).val; omega
  | ⟨1, _⟩ => show win1_3.index t (1 : Fin 2) * 128 + 1 * (y 1).val = (y 1).val; omega

/-- The blocks point `t` loads, read off the arrays as the region finds them. -/
theorem blk0 (c : Dev nD) (t : Fin cfg1.N) :
    iblk1 V c 0 t = fun y : S8000x1.Idx => V c main_arg2 (ix2 (rowOf t (y 0)) (y 1)) :=
  funext fun y => show V c main_arg2 (((cfg1.win 0).blk t).view.emb y) = _ from congrArg (V c main_arg2) (emb0 t y)

theorem blk1 (c : Dev nD) (t : Fin cfg1.N) : iblk1 V c 1 t = V c main_arg5 :=
  funext fun y => show V c main_arg5 (((cfg1.win 1).blk t).view.emb y) = _ from congrArg (V c main_arg5) (emb1 t y)

theorem blk2 (c : Dev nD) (t : Fin cfg1.N) : iblk1 V c 2 t = V c main_v1 :=
  funext fun y => show V c main_v1 (((cfg1.win 2).blk t).view.emb y) = _ from congrArg (V c main_v1) (emb2 t y)

/-- What point `t` writes back is its block of `scaleRows` of the arrays as the region finds them. -/
theorem flushed_eq (c : Dev nD) (t : Fin cfg1.N) :
    (dat1 V c).flushed 3 t = ((cfg1.win 3).blk t).view.read (Elt Ideal)
      (scaleRows 600000 128 (V c main_arg2) (V c main_arg5) (V c main_v1)) := by
  show (cfg1.win 3).cut (grid1.coords t) ((dat1 V c).after 3 t) = _
  rw [after1_3]
  unfold out1_3
  rw [View.canon_unit_zero hz]
  simp only [View.ld_unit_zero (S := S8000x1) hz, View.ld_unit_zero (S := S1x128) hz]
  rw [Pay.edgeProj, blk0 V c t, blk1 V c t, blk2 V c t]
  funext j
  show scaleRows 8000 128 (fun y : S8000x1.Idx => V c main_arg2 (ix2 (rowOf t (y 0)) (y 1))) (V c main_arg5) (V c main_v1) j
    = scaleRows 600000 128 (V c main_arg2) (V c main_arg5) (V c main_v1) (((cfg1.win 3).blk t).view.emb j)
  rw [emb3 t j]
  exact scaleRows_rows 600000 8000 128 (V c main_arg2) (V c main_arg5) (V c main_v1) (rowOf t) j

/-- An index of the result is in point `t`'s block iff each coordinate is in the block's range on its axis. -/
theorem mem_blk (t : Fin cfg1.N) (i : S600000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v3).slice (win1_3.rect t)).set ↔ _
  rw [View.set_slice_whole, Rect.mem_set_unit]
  exact Iff.rfl

/-- Row `r` of the result is written by point `r / 8000`. -/
theorem cover (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  have ht : (i 0).val / 8000 < 75 := by omega
  refine ⟨⟨(i 0).val / 8000, ht⟩, flush1_3 _, ?_⟩
  rw [mem_blk]
  obtain ⟨-, -, -, -, -, -, e0, e1⟩ := idx_facts ⟨(i 0).val / 8000, ht⟩
  have e0' : win1_3.index ⟨(i 0).val / 8000, ht⟩ (0 : Fin 2) = (i 0).val / 8000 := e0
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    omega
  | ⟨1, _⟩ =>
    show win1_3.index ⟨(i 0).val / 8000, ht⟩ (1 : Fin 2) * 128 ≤ (i 1).val
      ∧ (i 1).val < win1_3.index ⟨(i 0).val / 8000, ht⟩ (1 : Fin 2) * 128 + 128
    omega

/-- The result array after region 1: `scaleRows` of the arrays the region found. -/
theorem final (c : Dev nD) :
    (dat1 V c).arrAt 3 cfg1.N = scaleRows 600000 128 (V c main_arg2) (V c main_arg5) (V c main_v1) :=
  (dat1 V c).arrAt_eq_of_cover 3 _ (fun t _ => flushed_eq V c t) cover

end Cert.KernelIdeal.Reg1

end
-- ==== Proof.Reg2.lean ====
/-
  Region 2 (the combine step of layer 1), from blocks to the whole array.

  The grid has 75 points; point `t` loads rows `8000 t … 8000 t + 7999` of the gathered node features and of the edge
  features and writes back the same rows of the messages. `message` is computed entry by entry, so what point `t`
  writes back is its block of `message` of the whole arrays, and the 75 blocks tile the 600000 rows.
-/
import proofs.«171168_j16716012716418_1_alg».proof.Proof.Gen.KernelIdeal.Frame
import proofs.«171168_j16716012716418_1_alg».proof.Proof.KPay

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window sits at block `t`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `p` of point `t`'s block is row `8000 t + p` of the array. -/
def rowOf (t : Fin cfg2.N) (p : Fin 8000) : Fin 600000 :=
  ⟨8000 * t.val + p.val, by have ht : t.val < 75 := t.isLt; have := p.isLt; omega⟩

theorem emb0 (t : Fin cfg2.N) (y : S8000x128.Idx) : ((cfg2.win 0).blk t).view.emb y = ix2 (rowOf t (y 0)) (y 1) := by
  obtain ⟨e0, e1, -⟩ := idx_facts t
  funext a; apply Fin.ext
  match a with
  | ⟨0, _⟩ => show win2_0.index t (0 : Fin 2) * 8000 + 1 * (y 0).val = 8000 * t.val + (y 0).val; omega
  | ⟨1, _⟩ => show win2_0.index t (1 : Fin 2) * 128 + 1 * (y 1).val = (y 1).val; omega

theorem emb1 (t : Fin cfg2.N) (y : S8000x128.Idx) : ((cfg2.win 1).blk t).view.emb y = ix2 (rowOf t (y 0)) (y 1) := by
  obtain ⟨-, -, e0, e1, -⟩ := idx_facts t
  funext a; apply Fin.ext
  match a with
  | ⟨0, _⟩ => show win2_1.index t (0 : Fin 2) * 8000 + 1 * (y 0).val = 8000 * t.val + (y 0).val; omega
  | ⟨1, _⟩ => show win2_1.index t (1 : Fin 2) * 128 + 1 * (y 1).val = (y 1).val; omega

theorem emb2 (t : Fin cfg2.N) (y : S8000x128.Idx) : ((cfg2.win 2).blk t).view.emb y = ix2 (rowOf t (y 0)) (y 1) := by
  obtain ⟨-, -, -, -, e0, e1⟩ := idx_facts t
  funext a; apply Fin.ext
  match a with
  | ⟨0, _⟩ => show win2_2.index t (0 : Fin 2) * 8000 + 1 * (y 0).val = 8000 * t.val + (y 0).val; omega
  | ⟨1, _⟩ => show win2_2.index t (1 : Fin 2) * 128 + 1 * (y 1).val = (y 1).val; omega

/-- The blocks point `t` loads, read off the arrays as the region finds them. -/
theorem blk0 (c : Dev nD) (t : Fin cfg2.N) :
    iblk2 V c 0 t = fun y : S8000x128.Idx => V c main_v14 (ix2 (rowOf t (y 0)) (y 1)) :=
  funext fun y => show V c main_v14 (((cfg2.win 0).blk t).view.emb y) = _ from congrArg (V c main_v14) (emb0 t y)

theorem blk1 (c : Dev nD) (t : Fin cfg2.N) :
    iblk2 V c 1 t = fun y : S8000x128.Idx => V c main_v3 (ix2 (rowOf t (y 0)) (y 1)) :=
  funext fun y => show V c main_v3 (((cfg2.win 1).blk t).view.emb y) = _ from congrArg (V c main_v3) (emb1 t y)

/-- What point `t` writes back is its block of `message` of the arrays as the region finds them. -/
theorem flushed_eq (c : Dev nD) (t : Fin cfg2.N) :
    (dat2 V c).flushed 2 t = ((cfg2.win 2).blk t).view.read (Elt Ideal) (message (V c main_v14) (V c main_v3)) := by
  show (cfg2.win 2).cut (grid2.coords t) ((dat2 V c).after 2 t) = _
  rw [after2_2]
  unfold out2_2
  rw [View.canon_unit_zero hz]
  simp only [View.ld_unit_zero (S := S8000x128) hz]
  rw [Pay.combine2, blk0 V c t, blk1 V c t]
  funext j
  show message (fun y : S8000x128.Idx => V c main_v14 (ix2 (rowOf t (y 0)) (y 1)))
      (fun y : S8000x128.Idx => V c main_v3 (ix2 (rowOf t (y 0)) (y 1))) j
    = message (V c main_v14) (V c main_v3) (((cfg2.win 2).blk t).view.emb j)
  rw [emb2 t j]
  rfl

/-- An index of the result is in point `t`'s block iff each coordinate is in the block's range on its axis. -/
theorem mem_blk (t : Fin cfg2.N) (i : S600000x128.Idx) :
    i ∈ ((cfg2.win 2).blk t).view.set ↔ ∀ a : Fin 2, win2_2.index t a * S8000x128.size a ≤ (i a).val
      ∧ (i a).val < win2_2.index t a * S8000x128.size a + S8000x128.size a := by
  show i ∈ ((View.whole main_v15).slice (win2_2.rect t)).set ↔ _
  rw [View.set_slice_whole, Rect.mem_set_unit]
  exact Iff.rfl

/-- Row `r` of the result is written by point `r / 8000`. -/
theorem cover (i : S600000x128.Idx) :
    ∃ t : Fin cfg2.N, (cfg2.win 2).flush t = true ∧ i ∈ ((cfg2.win 2).blk t).view.set := by
  have hi0 : (i 0).val < 600000 := (i 0).isLt
  have hi1 : (i 1).val < 128 := (i 1).isLt
  have ht : (i 0).val / 8000 < 75 := by omega
  refine ⟨⟨(i 0).val / 8000, ht⟩, flush2_2 _, ?_⟩
  rw [mem_blk]
  obtain ⟨-, -, -, -, e0, e1⟩ := idx_facts ⟨(i 0).val / 8000, ht⟩
  have e0' : win2_2.index ⟨(i 0).val / 8000, ht⟩ (0 : Fin 2) = (i 0).val / 8000 := e0
  intro a
  match a with
  | ⟨0, _⟩ =>
    show win2_2.index ⟨(i 0).val / 8000, ht⟩ (0 : Fin 2) * 8000 ≤ (i 0).val
      ∧ (i 0).val < win2_2.index ⟨(i 0).val / 8000, ht⟩ (0 : Fin 2) * 8000 + 8000
    omega
  | ⟨1, _⟩ =>
    show win2_2.index ⟨(i 0).val / 8000, ht⟩ (1 : Fin 2) * 128 ≤ (i 1).val
      ∧ (i 1).val < win2_2.index ⟨(i 0).val / 8000, ht⟩ (1 : Fin 2) * 128 + 128
    omega

/-- The messages after region 2: `message` of the arrays the region found. -/
theorem final (c : Dev nD) : (dat2 V c).arrAt 2 cfg2.N = message (V c main_v14) (V c main_v3) :=
  (dat2 V c).arrAt_eq_of_cover 2 _ (fun t _ => flushed_eq V c t) cover

end Cert.KernelIdeal.Reg2

end
-- ==== Proof.Reg3.lean ====
/-
  Region 3 (the node update of layer 1), from blocks to the whole array.

  The grid has ten points; point `t` loads rows `5000 t … 5000 t + 4999` of the node features and of the aggregated
  messages, the two whole weight matrices and the two whole bias rows, and writes back the same rows of the new node
  features. `update` is computed row by row, so what point `t` writes back is its block of `update` of the whole
  arrays, and the ten blocks tile the 50000 rows.
-/
import proofs.«171168_j16716012716418_1_alg».proof.Proof.Gen.KernelIdeal.Frame
import proofs.«171168_j16716012716418_1_alg».proof.Proof.KPay

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block `t`. -/
theorem idx_rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0 :=
  (by decide +kernel : ∀ t : Fin grid3.N, _)

/-- The weights' and biases' windows sit at block 0: each is its whole array. -/
theorem idx_whole : ∀ t : Fin cfg3.N,
    (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0) :=
  (by decide +kernel : ∀ t : Fin grid3.N, _)

/-- Row `p` of point `t`'s block is row `5000 t + p` of the array. -/
def rowOf (t : Fin cfg3.N) (p : Fin 5000) : Fin 50000 :=
  ⟨5000 * t.val + p.val, by have ht : t.val < 10 := t.isLt; have := p.isLt; omega⟩

theorem emb0 (t : Fin cfg3.N) (y : S5000x128.Idx) : ((cfg3.win 0).blk t).view.emb y = ix2 (rowOf t (y 0)) (y 1) := by
  obtain ⟨e0, e1, -⟩ := idx_rows t
  funext a; apply Fin.ext
  match a with
  | ⟨0, _⟩ => show win3_0.index t (0 : Fin 2) * 5000 + 1 * (y 0).val = 5000 * t.val + (y 0).val; omega
  | ⟨1, _⟩ => show win3_0.index t (1 : Fin 2) * 128 + 1 * (y 1).val = (y 1).val; omega

theorem emb1 (t : Fin cfg3.N) (y : S5000x128.Idx) : ((cfg3.win 1).blk t).view.emb y = ix2 (rowOf t (y 0)) (y 1) := by
  obtain ⟨-, -, e0, e1, -⟩ := idx_rows t
  funext a; apply Fin.ext
  match a with
  | ⟨0, _⟩ => show win3_1.index t (0 : Fin 2) * 5000 + 1 * (y 0).val = 5000 * t.val + (y 0).val; omega
  | ⟨1, _⟩ => show win3_1.index t (1 : Fin 2) * 128 + 1 * (y 1).val = (y 1).val; omega

theorem emb2 (t : Fin cfg3.N) (y : S128x128.Idx) : ((cfg3.win 2).blk t).view.emb y = y := by
  have e0 : win3_2.index t (0 : Fin 2) = 0 := (idx_whole t).1.1
  have e1 : win3_2.index t (1 : Fin 2) = 0 := (idx_whole t).1.2
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

theorem emb3 (t : Fin cfg3.N) (y : S1x128.Idx) : ((cfg3.win 3).blk t).view.emb y = y := by
  have e0 : win3_3.index t (0 : Fin 2) = 0 := (idx_whole t).2.1.1
  have e1 : win3_3.index t (1 : Fin 2) = 0 := (idx_whole t).2.1.2
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem emb4 (t : Fin cfg3.N) (y : S128x128.Idx) : ((cfg3.win 4).blk t).view.emb y = y := by
  have e0 : win3_4.index t (0 : Fin 2) = 0 := (idx_whole t).2.2.1.1
  have e1 : win3_4.index t (1 : Fin 2) = 0 := (idx_whole t).2.2.1.2
  funext a; apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

theorem emb5 (t : Fin cfg3.N) (y : S1x128.Idx) : ((cfg3.win 5).blk t).view.emb y = y := by
  have e0 : win3_5.index t (0 : Fin 2) = 0 := (idx_whole t).2.2.2.1
  have e1 : win3_5.index t (1 : Fin 2) = 0 := (idx_whole t).2.2.2.2
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

theorem emb6 (t : Fin cfg3.N) (y : S5000x128.Idx) : ((cfg3.win 6).blk t).view.emb y = ix2 (rowOf t (y 0)) (y 1) := by
  obtain ⟨-, -, -, -, e0, e1⟩ := idx_rows t
  funext a; apply Fin.ext
  match a with
  | ⟨0, _⟩ => show win3_6.index t (0 : Fin 2) * 5000 + 1 * (y 0).val = 5000 * t.val + (y 0).val; omega
  | ⟨1, _⟩ => show win3_6.index t (1 : Fin 2) * 128 + 1 * (y 1).val = (y 1).val; omega

/-- The blocks point `t` loads, read off the arrays as the region finds them. -/
theorem blk0 (c : Dev nD) (t : Fin cfg3.N) :
    iblk3 V c 0 t = fun y : S5000x128.Idx => V c main_v2 (ix2 (rowOf t (y 0)) (y 1)) :=
  funext fun y => show V c main_v2 (((cfg3.win 0).blk t).view.emb y) = _ from congrArg (V c main_v2) (emb0 t y)

theorem blk1 (c : Dev nD) (t : Fin cfg3.N) :
    iblk3 V c 1 t = fun y : S5000x128.Idx => V c main_v18 (ix2 (rowOf t (y 0)) (y 1)) :=
  funext fun y => show V c main_v18 (((cfg3.win 1).blk t).view.emb y) = _ from congrArg (V c main_v18) (emb1 t y)

theorem blk2 (c : Dev nD) (t : Fin cfg3.N) : iblk3 V c 2 t = V c main_v20 :=
  funext fun y => show V c main_v20 (((cfg3.win 2).blk t).view.emb y) = _ from congrArg (V c main_v20) (emb2 t y)

theorem blk3 (c : Dev nD) (t : Fin cfg3.N) : iblk3 V c 3 t = V c main_v23 :=
  funext fun y => show V c main_v23 (((cfg3.win 3).blk t).view.emb y) = _ from congrArg (V c main_v23) (emb3 t y)

theorem blk4 (c : Dev nD) (t : Fin cfg3.N) : iblk3 V c 4 t = V c main_v25 :=
  funext fun y => show V c main_v25 (((cfg3.win 4).blk t).view.emb y) = _ from congrArg (V c main_v25) (emb4 t y)

theorem blk5 (c : Dev nD) (t : Fin cfg3.N) : iblk3 V c 5 t = V c main_v28 :=
  funext fun y => show V c main_v28 (((cfg3.win 5).blk t).view.emb y) = _ from congrArg (V c main_v28) (emb5 t y)

/-- What point `t` writes back is its block of `update` of the arrays as the region finds them. -/
theorem flushed_eq (c : Dev nD) (t : Fin cfg3.N) :
    (dat3 V c).flushed 6 t = ((cfg3.win 6).blk t).view.read (Elt Ideal)
      (update 50000 128 (V c main_v2) (V c main_v18) (V c main_v20) (V c main_v23) (V c main_v25) (V c main_v28)) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  rw [Pay.nodeUpdate3, blk0 V c t, blk1 V c t, blk2 V c t, blk3 V c t, blk4 V c t, blk5 V c t]
  funext j
  show update 5000 128 (fun y : S5000x128.Idx => V c main_v2 (ix2 (rowOf t (y 0)) (y 1)))
      (fun y : S5000x128.Idx => V c main_v18 (ix2 (rowOf t (y 0)) (y 1))) (V c main_v20) (V c main_v23) (V c main_v25) (V c main_v28) j
    = update 50000 128 (V c main_v2) (V c main_v18) (V c main_v20) (V c main_v23) (V c main_v25) (V c main_v28)
        (((cfg3.win 6).blk t).view.emb j)
  rw [emb6 t j]
  exact update_rows 50000 5000 128 (V c main_v2) (V c main_v18) (V c main_v20) (V c main_v23) (V c main_v25) (V c main_v28) (rowOf t) j

/-- An index of the result is in point `t`'s block iff each coordinate is in the block's range on its axis. -/
theorem mem_blk (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v29).slice (win3_6.rect t)).set ↔ _
  rw [View.set_slice_whole, Rect.mem_set_unit]
  exact Iff.rfl

/-- Row `r` of the result is written by point `r / 5000`. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have ht : (i 0).val / 5000 < 10 := by omega
  refine ⟨⟨(i 0).val / 5000, ht⟩, flush3_6 _, ?_⟩
  rw [mem_blk]
  obtain ⟨-, -, -, -, e0, e1⟩ := idx_rows ⟨(i 0).val / 5000, ht⟩
  have e0' : win3_6.index ⟨(i 0).val / 5000, ht⟩ (0 : Fin 2) = (i 0).val / 5000 := e0
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    omega
  | ⟨1, _⟩ =>
    show win3_6.index ⟨(i 0).val / 5000, ht⟩ (1 : Fin 2) * 128 ≤ (i 1).val
      ∧ (i 1).val < win3_6.index ⟨(i 0).val / 5000, ht⟩ (1 : Fin 2) * 128 + 128
    omega

/-- The node features after region 3: `update` of the arrays the region found. -/
theorem final (c : Dev nD) :
    (dat3 V c).arrAt 6 cfg3.N
      = update 50000 128 (V c main_v2) (V c main_v18) (V c main_v20) (V c main_v23) (V c main_v25) (V c main_v28) :=
  (dat3 V c).arrAt_eq_of_cover 6 _ (fun t _ => flushed_eq V c t) cover

end Cert.KernelIdeal.Reg3

end
-- ==== Proof.Reg4.lean ====
/-
  Region 4 (the combine step of layer 2), from blocks to the whole array.

  The grid has 75 points; point `t` loads rows `8000 t … 8000 t + 7999` of the gathered node features and of the edge
  features and writes back the same rows of the messages. `message` is computed entry by entry, so what point `t`
  writes back is its block of `message` of the whole arrays, and the 75 blocks tile the 600000 rows.
-/
import proofs.«171168_j16716012716418_1_alg».proof.Proof.Gen.KernelIdeal.Frame
import proofs.«171168_j16716012716418_1_alg».proof.Proof.KPay

set_option maxRecDepth 16384

noncomputable section

namespace Cert.KernelIdeal.Reg4

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window sits at block `t`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row `p` of point `t`'s block is row `8000 t + p` of the array. -/
def rowOf (t : Fin cfg4.N) (p : Fin 8000) : Fin 600000 :=
  ⟨8000 * t.val + p.val, by have ht : t.val < 75 := t.isLt; have := p.isLt; omega⟩

theorem emb0 (t : Fin cfg4.N) (y : S8000x128.Idx) : ((cfg4.win 0).blk t).view.emb y = ix2 (rowOf t (y 0)) (y 1) := by
  obtain ⟨e0, e1, -⟩ := idx_facts t
  funext a; apply Fin.ext
  match a with
  | ⟨0, _⟩ => show win4_0.index t (0 : Fin 2) * 8000 + 1 * (y 0).val = 8000 * t.val + (y 0).val; omega
  | ⟨1, _⟩ => show win4_0.index t (1 : Fin 2) * 128 + 1 * (y 1).val = (y 1).val; omega

theorem emb1 (t : Fin cfg4.N) (y : S8000x128.Idx) : ((cfg4.win 1).blk t).view.emb y = ix2 (rowOf t (y 0)) (y 1) := by
  obtain ⟨-, -, e0, e1, -⟩ := idx_facts t
  funext a; apply Fin.ext
  match a with
  | ⟨0, _⟩ => show win4_1.index t (0 : Fin 2) * 8000 + 1 * (y 0).val = 8000 * t.val + (y 0).val; omega
  | ⟨1, _⟩ => show win4_1.index t (1 : Fin 2) * 128 + 1 * (y 1).val = (y 1).val; omega

theorem emb2 (t : Fin cfg4.N) (y : S8000x128.Idx) : ((cfg4.win 2).blk t).view.emb y = ix2 (rowOf t (y 0)) (y 1) := by
  obtain ⟨-, -, -, -, e0, e1⟩ := idx_facts t
  funext a; apply Fin.ext
  match a with
  | ⟨0, _⟩ => show win4_2.index t (0 : Fin 2) * 8000 + 1 * (y 0).val = 8000 * t.val + (y 0).val; omega
  | ⟨1, _⟩ => show win4_2.index t (1 : Fin 2) * 128 + 1 * (y 1).val = (y 1).val; omega

/-- The blocks point `t` loads, read off the arrays as the region finds them. -/
theorem blk0 (c : Dev nD) (t : Fin cfg4.N) :
    iblk4 V c 0 t = fun y : S8000x128.Idx => V c main_v36 (ix2 (rowOf t (y 0)) (y 1)) :=
  funext fun y => show V c main_v36 (((cfg4.win 0).blk t).view.emb y) = _ from congrArg (V c main_v36) (emb0 t y)

theorem blk1 (c : Dev nD) (t : Fin cfg4.N) :
    iblk4 V c 1 t = fun y : S8000x128.Idx => V c main_v3 (ix2 (rowOf t (y 0)) (y 1)) :=
  funext fun y => show V c main_v3 (((cfg4.win 1).blk t).view.emb y) = _ from congrArg (V c main_v3) (emb1 t y)

/-- What point `t` writes back is its block of `message` of the arrays as the region finds them. -/
theorem flushed_eq (c : Dev nD) (t : Fin cfg4.N) :
    (dat4 V c).flushed 2 t = ((cfg4.win 2).blk t).view.read (Elt Ideal) (message (V c main_v36) (V c main_v3)) := by
  show (cfg4.win 2).cut (grid4.coords t) ((dat4 V c).after 2 t) = _
  rw [after4_2]
  unfold out4_2
  rw [View.canon_unit_zero hz]
  simp only [View.ld_unit_zero (S := S8000x128) hz]
  rw [Pay.combine4, blk0 V c t, blk1 V c t]
  funext j
  show message (fun y : S8000x128.Idx => V c main_v36 (ix2 (rowOf t (y 0)) (y 1)))
      (fun y : S8000x128.Idx => V c main_v3 (ix2 (rowOf t (y 0)) (y 1))) j
    = message (V c main_v36) (V c main_v3) (((cfg4.win 2).blk t).view.emb j)
  rw [emb2 t j]
  rfl

/-- An index of the result is in point `t`'s block iff each coordinate is in the block's range on its axis. -/
theorem mem_blk (t : Fin cfg4.N) (i : S600000x128.Idx) :
    i ∈ ((cfg4.win 2).blk t).view.set ↔ ∀ a : Fin 2, win4_2.index t a * S8000x128.size a ≤ (i a).val
      ∧ (i a).val < win4_2.index t a * S8000x128.size a + S8000x128.size a := by
  show i ∈ ((View.whole main_v37).slice (win4_2.rect t)).set ↔ _
  rw [View.set_slice_whole, Rect.mem_set_unit]
  exact Iff.rfl

/-- Row `r` of the result is written by point `r / 8000`. -/
theorem cover (i : S600000x128.Idx) :
    ∃ t : Fin cfg4.N, (cfg4.win 2).flush t = true ∧ i ∈ ((cfg4.win 2).blk t).view.set := by
  have hi0 : (i 0).val < 600000 := (i 0).isLt
  have hi1 : (i 1).val < 128 := (i 1).isLt
  have ht : (i 0).val / 8000 < 75 := by omega
  refine ⟨⟨(i 0).val / 8000, ht⟩, flush4_2 _, ?_⟩
  rw [mem_blk]
  obtain ⟨-, -, -, -, e0, e1⟩ := idx_facts ⟨(i 0).val / 8000, ht⟩
  have e0' : win4_2.index ⟨(i 0).val / 8000, ht⟩ (0 : Fin 2) = (i 0).val / 8000 := e0
  intro a
  match a with
  | ⟨0, _⟩ =>
    show win4_2.index ⟨(i 0).val / 8000, ht⟩ (0 : Fin 2) * 8000 ≤ (i 0).val
      ∧ (i 0).val < win4_2.index ⟨(i 0).val / 8000, ht⟩ (0 : Fin 2) * 8000 + 8000
    omega
  | ⟨1, _⟩ =>
    show win4_2.index ⟨(i 0).val / 8000, ht⟩ (1 : Fin 2) * 128 ≤ (i 1).val
      ∧ (i 1).val < win4_2.index ⟨(i 0).val / 8000, ht⟩ (1 : Fin 2) * 128 + 128
    omega

/-- The messages after region 4: `message` of the arrays the region found. -/
theorem final (c : Dev nD) : (dat4 V c).arrAt 2 cfg4.N = message (V c main_v36) (V c main_v3) :=
  (dat4 V c).arrAt_eq_of_cover 2 _ (fun t _ => flushed_eq V c t) cover

end Cert.KernelIdeal.Reg4

end
-- ==== Proof.Reg5.lean ====
/-
  Region 5 (the node update of layer 2), from blocks to the whole array.

  The grid has ten points; point `t` loads rows `5000 t … 5000 t + 4999` of the node features and of the aggregated
  messages, the two whole weight matrices and the two whole bias rows, and writes back the same rows of the new node
  features. `update` is computed row by row, so what point `t` writes back is its block of `update` of the whole
  arrays, and the ten blocks tile the 50000 rows.
-/
import proofs.«171168_j16716012716418_1_alg».proof.Proof.Gen.KernelIdeal.Frame
import proofs.«171168_j16716012716418_1_alg».proof.Proof.KPay

set_option maxRecDepth 16384

noncomputable section

namespace Cert.KernelIdeal.Reg5

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block `t`. -/
theorem idx_rows : ∀ t : Fin cfg5.N,
    win5_0.index t (0 : Fin 2) = t.val ∧ win5_0.index t (1 : Fin 2) = 0
    ∧ win5_1.index t (0 : Fin 2) = t.val ∧ win5_1.index t (1 : Fin 2) = 0
    ∧ win5_6.index t (0 : Fin 2) = t.val ∧ win5_6.index t (1 : Fin 2) = 0 :=
  (by decide +kernel : ∀ t : Fin grid5.N, _)

/-- The weights' and biases' windows sit at block 0: each is its whole array. -/
theorem idx_whole : ∀ t : Fin cfg5.N,
    (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0) :=
  (by decide +kernel : ∀ t : Fin grid5.N, _)

/-- Row `p` of point `t`'s block is row `5000 t + p` of the array. -/
def rowOf (t : Fin cfg5.N) (p : Fin 5000) : Fin 50000 :=
  ⟨5000 * t.val + p.val, by have ht : t.val < 10 := t.isLt; have := p.isLt; omega⟩

theorem emb0 (t : Fin cfg5.N) (y : S5000x128.Idx) : ((cfg5.win 0).blk t).view.emb y = ix2 (rowOf t (y 0)) (y 1) := by
  obtain ⟨e0, e1, -⟩ := idx_rows t
  funext a; apply Fin.ext
  match a with
  | ⟨0, _⟩ => show win5_0.index t (0 : Fin 2) * 5000 + 1 * (y 0).val = 5000 * t.val + (y 0).val; omega
  | ⟨1, _⟩ => show win5_0.index t (1 : Fin 2) * 128 + 1 * (y 1).val = (y 1).val; omega

theorem emb1 (t : Fin cfg5.N) (y : S5000x128.Idx) : ((cfg5.win 1).blk t).view.emb y = ix2 (rowOf t (y 0)) (y 1) := by
  obtain ⟨-, -, e0, e1, -⟩ := idx_rows t
  funext a; apply Fin.ext
  match a with
  | ⟨0, _⟩ => show win5_1.index t (0 : Fin 2) * 5000 + 1 * (y 0).val = 5000 * t.val + (y 0).val; omega
  | ⟨1, _⟩ => show win5_1.index t (1 : Fin 2) * 128 + 1 * (y 1).val = (y 1).val; omega

theorem emb2 (t : Fin cfg5.N) (y : S128x128.Idx) : ((cfg5.win 2).blk t).view.emb y = y := by
  have e0 : win5_2.index t (0 : Fin 2) = 0 := (idx_whole t).1.1
  have e1 : win5_2.index t (1 : Fin 2) = 0 := (idx_whole t).1.2
  funext a; apply Fin.ext
  match a with
  | ⟨0, _⟩ => show win5_2.index t (0 : Fin 2) * 128 + 1 * (y 0).val = (y 0).val; omega
  | ⟨1, _⟩ => show win5_2.index t (1 : Fin 2) * 128 + 1 * (y 1).val = (y 1).val; omega

theorem emb3 (t : Fin cfg5.N) (y : S1x128.Idx) : ((cfg5.win 3).blk t).view.emb y = y := by
  have e0 : win5_3.index t (0 : Fin 2) = 0 := (idx_whole t).2.1.1
  have e1 : win5_3.index t (1 : Fin 2) = 0 := (idx_whole t).2.1.2
  funext a; apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

theorem emb4 (t : Fin cfg5.N) (y : S128x128.Idx) : ((cfg5.win 4).blk t).view.emb y = y := by
  have e0 : win5_4.index t (0 : Fin 2) = 0 := (idx_whole t).2.2.1.1
  have e1 : win5_4.index t (1 : Fin 2) = 0 := (idx_whole t).2.2.1.2
  funext a; apply Fin.ext
  match a with
  | ⟨0, _⟩ => show win5_4.index t (0 : Fin 2) * 128 + 1 * (y 0).val = (y 0).val; omega
  | ⟨1, _⟩ => show win5_4.index t (1 : Fin 2) * 128 + 1 * (y 1).val = (y 1).val; omega

theorem emb5 (t : Fin cfg5.N) (y : S1x128.Idx) : ((cfg5.win 5).blk t).view.emb y = y := by
  have e0 : win5_5.index t (0 : Fin 2) = 0 := (idx_whole t).2.2.2.1
  have e1 : win5_5.index t (1 : Fin 2) = 0 := (idx_whole t).2.2.2.2
  funext a; apply Fin.ext
  match a with
  | ⟨0, _⟩ => show win5_5.index t (0 : Fin 2) * 1 + 1 * (y 0).val = (y 0).val; omega
  | ⟨1, _⟩ => show win5_5.index t (1 : Fin 2) * 128 + 1 * (y 1).val = (y 1).val; omega

theorem emb6 (t : Fin cfg5.N) (y : S5000x128.Idx) : ((cfg5.win 6).blk t).view.emb y = ix2 (rowOf t (y 0)) (y 1) := by
  obtain ⟨-, -, -, -, e0, e1⟩ := idx_rows t
  funext a; apply Fin.ext
  match a with
  | ⟨0, _⟩ => show win5_6.index t (0 : Fin 2) * 5000 + 1 * (y 0).val = 5000 * t.val + (y 0).val; omega
  | ⟨1, _⟩ => show win5_6.index t (1 : Fin 2) * 128 + 1 * (y 1).val = (y 1).val; omega

/-- The blocks point `t` loads, read off the arrays as the region finds them. -/
theorem blk0 (c : Dev nD) (t : Fin cfg5.N) :
    iblk5 V c 0 t = fun y : S5000x128.Idx => V c main_v29 (ix2 (rowOf t (y 0)) (y 1)) :=
  funext fun y => show V c main_v29 (((cfg5.win 0).blk t).view.emb y) = _ from congrArg (V c main_v29) (emb0 t y)

theorem blk1 (c : Dev nD) (t : Fin cfg5.N) :
    iblk5 V c 1 t = fun y : S5000x128.Idx => V c main_v40 (ix2 (rowOf t (y 0)) (y 1)) :=
  funext fun y => show V c main_v40 (((cfg5.win 1).blk t).view.emb y) = _ from congrArg (V c main_v40) (emb1 t y)

theorem blk2 (c : Dev nD) (t : Fin cfg5.N) : iblk5 V c 2 t = V c main_v42 :=
  funext fun y => show V c main_v42 (((cfg5.win 2).blk t).view.emb y) = _ from congrArg (V c main_v42) (emb2 t y)

theorem blk3 (c : Dev nD) (t : Fin cfg5.N) : iblk5 V c 3 t = V c main_v45 :=
  funext fun y => show V c main_v45 (((cfg5.win 3).blk t).view.emb y) = _ from congrArg (V c main_v45) (emb3 t y)

theorem blk4 (c : Dev nD) (t : Fin cfg5.N) : iblk5 V c 4 t = V c main_v47 :=
  funext fun y => show V c main_v47 (((cfg5.win 4).blk t).view.emb y) = _ from congrArg (V c main_v47) (emb4 t y)

theorem blk5 (c : Dev nD) (t : Fin cfg5.N) : iblk5 V c 5 t = V c main_v50 :=
  funext fun y => show V c main_v50 (((cfg5.win 5).blk t).view.emb y) = _ from congrArg (V c main_v50) (emb5 t y)

/-- What point `t` writes back is its block of `update` of the arrays as the region finds them. -/
theorem flushed_eq (c : Dev nD) (t : Fin cfg5.N) :
    (dat5 V c).flushed 6 t = ((cfg5.win 6).blk t).view.read (Elt Ideal)
      (update 50000 128 (V c main_v29) (V c main_v40) (V c main_v42) (V c main_v45) (V c main_v47) (V c main_v50)) := by
  show (cfg5.win 6).cut (grid5.coords t) ((dat5 V c).after 6 t) = _
  rw [after5_6]
  unfold out5_6
  rw [View.canon_unit_zero hz]
  simp only [View.ld_unit_zero (S := S5000x128) hz, View.ld_unit_zero (S := S128x128) hz, View.ld_unit_zero (S := S1x128) hz]
  rw [Pay.nodeUpdate5, blk0 V c t, blk1 V c t, blk2 V c t, blk3 V c t, blk4 V c t, blk5 V c t]
  funext j
  show update 5000 128 (fun y : S5000x128.Idx => V c main_v29 (ix2 (rowOf t (y 0)) (y 1)))
      (fun y : S5000x128.Idx => V c main_v40 (ix2 (rowOf t (y 0)) (y 1))) (V c main_v42) (V c main_v45) (V c main_v47) (V c main_v50) j
    = update 50000 128 (V c main_v29) (V c main_v40) (V c main_v42) (V c main_v45) (V c main_v47) (V c main_v50)
        (((cfg5.win 6).blk t).view.emb j)
  rw [emb6 t j]
  exact update_rows 50000 5000 128 (V c main_v29) (V c main_v40) (V c main_v42) (V c main_v45) (V c main_v47) (V c main_v50) (rowOf t) j

/-- An index of the result is in point `t`'s block iff each coordinate is in the block's range on its axis. -/
theorem mem_blk (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v51).slice (win5_6.rect t)).set ↔ _
  rw [View.set_slice_whole, Rect.mem_set_unit]
  exact Iff.rfl

/-- Row `r` of the result is written by point `r / 5000`. -/
theorem cover (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have ht : (i 0).val / 5000 < 10 := by omega
  refine ⟨⟨(i 0).val / 5000, ht⟩, flush5_6 _, ?_⟩
  rw [mem_blk]
  obtain ⟨-, -, -, -, e0, e1⟩ := idx_rows ⟨(i 0).val / 5000, ht⟩
  have e0' : win5_6.index ⟨(i 0).val / 5000, ht⟩ (0 : Fin 2) = (i 0).val / 5000 := e0
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    omega
  | ⟨1, _⟩ =>
    show win5_6.index ⟨(i 0).val / 5000, ht⟩ (1 : Fin 2) * 128 ≤ (i 1).val
      ∧ (i 1).val < win5_6.index ⟨(i 0).val / 5000, ht⟩ (1 : Fin 2) * 128 + 128
    omega

/-- The node features after region 5: `update` of the arrays the region found. -/
theorem final (c : Dev nD) :
    (dat5 V c).arrAt 6 cfg5.N
      = update 50000 128 (V c main_v29) (V c main_v40) (V c main_v42) (V c main_v45) (V c main_v47) (V c main_v50) :=
  (dat5 V c).arrAt_eq_of_cover 6 _ (fun t _ => flushed_eq V c t) cover

end Cert.KernelIdeal.Reg5

end
-- ==== Proof.Reg6.lean ====
/-
  Region 6 (the combine step of layer 3), from blocks to the whole array.

  The grid has 75 points; point `t` loads rows `8000 t … 8000 t + 7999` of the gathered node features and of the edge
  features and writes back the same rows of the messages. `message` is computed entry by entry, so what point `t`
  writes back is its block of `message` of the whole arrays, and the 75 blocks tile the 600000 rows.
-/
import proofs.«171168_j16716012716418_1_alg».proof.Proof.Gen.KernelIdeal.Frame
import proofs.«171168_j16716012716418_1_alg».proof.Proof.KPay

set_option maxRecDepth 16384

noncomputable section

namespace Cert.KernelIdeal.Reg6

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window sits at block `t`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- Row `p` of point `t`'s block is row `8000 t + p` of the array. -/
def rowOf (t : Fin cfg6.N) (p : Fin 8000) : Fin 600000 :=
  ⟨8000 * t.val + p.val, by have ht : t.val < 75 := t.isLt; have := p.isLt; omega⟩

theorem emb0 (t : Fin cfg6.N) (y : S8000x128.Idx) : ((cfg6.win 0).blk t).view.emb y = ix2 (rowOf t (y 0)) (y 1) := by
  obtain ⟨e0, e1, -⟩ := idx_facts t
  funext a; apply Fin.ext
  match a with
  | ⟨0, _⟩ => show win6_0.index t (0 : Fin 2) * 8000 + 1 * (y 0).val = 8000 * t.val + (y 0).val; omega
  | ⟨1, _⟩ => show win6_0.index t (1 : Fin 2) * 128 + 1 * (y 1).val = (y 1).val; omega

theorem emb1 (t : Fin cfg6.N) (y : S8000x128.Idx) : ((cfg6.win 1).blk t).view.emb y = ix2 (rowOf t (y 0)) (y 1) := by
  obtain ⟨-, -, e0, e1, -⟩ := idx_facts t
  funext a; apply Fin.ext
  match a with
  | ⟨0, _⟩ => show win6_1.index t (0 : Fin 2) * 8000 + 1 * (y 0).val = 8000 * t.val + (y 0).val; omega
  | ⟨1, _⟩ => show win6_1.index t (1 : Fin 2) * 128 + 1 * (y 1).val = (y 1).val; omega

theorem emb2 (t : Fin cfg6.N) (y : S8000x128.Idx) : ((cfg6.win 2).blk t).view.emb y = ix2 (rowOf t (y 0)) (y 1) := by
  obtain ⟨-, -, -, -, e0, e1⟩ := idx_facts t
  funext a; apply Fin.ext
  match a with
  | ⟨0, _⟩ => show win6_2.index t (0 : Fin 2) * 8000 + 1 * (y 0).val = 8000 * t.val + (y 0).val; omega
  | ⟨1, _⟩ => show win6_2.index t (1 : Fin 2) * 128 + 1 * (y 1).val = (y 1).val; omega

/-- The blocks point `t` loads, read off the arrays as the region finds them. -/
theorem blk0 (c : Dev nD) (t : Fin cfg6.N) :
    iblk6 V c 0 t = fun y : S8000x128.Idx => V c main_v58 (ix2 (rowOf t (y 0)) (y 1)) :=
  funext fun y => show V c main_v58 (((cfg6.win 0).blk t).view.emb y) = _ from congrArg (V c main_v58) (emb0 t y)

theorem blk1 (c : Dev nD) (t : Fin cfg6.N) :
    iblk6 V c 1 t = fun y : S8000x128.Idx => V c main_v3 (ix2 (rowOf t (y 0)) (y 1)) :=
  funext fun y => show V c main_v3 (((cfg6.win 1).blk t).view.emb y) = _ from congrArg (V c main_v3) (emb1 t y)

/-- What point `t` writes back is its block of `message` of the arrays as the region finds them. -/
theorem flushed_eq (c : Dev nD) (t : Fin cfg6.N) :
    (dat6 V c).flushed 2 t = ((cfg6.win 2).blk t).view.read (Elt Ideal) (message (V c main_v58) (V c main_v3)) := by
  show (cfg6.win 2).cut (grid6.coords t) ((dat6 V c).after 2 t) = _
  rw [after6_2]
  unfold out6_2
  rw [View.canon_unit_zero hz]
  simp only [View.ld_unit_zero (S := S8000x128) hz]
  rw [Pay.combine6, blk0 V c t, blk1 V c t]
  funext j
  show message (fun y : S8000x128.Idx => V c main_v58 (ix2 (rowOf t (y 0)) (y 1)))
      (fun y : S8000x128.Idx => V c main_v3 (ix2 (rowOf t (y 0)) (y 1))) j
    = message (V c main_v58) (V c main_v3) (((cfg6.win 2).blk t).view.emb j)
  rw [emb2 t j]
  rfl

/-- An index of the result is in point `t`'s block iff each coordinate is in the block's range on its axis. -/
theorem mem_blk (t : Fin cfg6.N) (i : S600000x128.Idx) :
    i ∈ ((cfg6.win 2).blk t).view.set ↔ ∀ a : Fin 2, win6_2.index t a * S8000x128.size a ≤ (i a).val
      ∧ (i a).val < win6_2.index t a * S8000x128.size a + S8000x128.size a := by
  show i ∈ ((View.whole main_v59).slice (win6_2.rect t)).set ↔ _
  rw [View.set_slice_whole, Rect.mem_set_unit]
  exact Iff.rfl

/-- Row `r` of the result is written by point `r / 8000`. -/
theorem cover (i : S600000x128.Idx) :
    ∃ t : Fin cfg6.N, (cfg6.win 2).flush t = true ∧ i ∈ ((cfg6.win 2).blk t).view.set := by
  have hi0 : (i 0).val < 600000 := (i 0).isLt
  have hi1 : (i 1).val < 128 := (i 1).isLt
  have ht : (i 0).val / 8000 < 75 := by omega
  refine ⟨⟨(i 0).val / 8000, ht⟩, flush6_2 _, ?_⟩
  rw [mem_blk]
  obtain ⟨-, -, -, -, e0, e1⟩ := idx_facts ⟨(i 0).val / 8000, ht⟩
  have e0' : win6_2.index ⟨(i 0).val / 8000, ht⟩ (0 : Fin 2) = (i 0).val / 8000 := e0
  intro a
  match a with
  | ⟨0, _⟩ =>
    show win6_2.index ⟨(i 0).val / 8000, ht⟩ (0 : Fin 2) * 8000 ≤ (i 0).val
      ∧ (i 0).val < win6_2.index ⟨(i 0).val / 8000, ht⟩ (0 : Fin 2) * 8000 + 8000
    omega
  | ⟨1, _⟩ =>
    show win6_2.index ⟨(i 0).val / 8000, ht⟩ (1 : Fin 2) * 128 ≤ (i 1).val
      ∧ (i 1).val < win6_2.index ⟨(i 0).val / 8000, ht⟩ (1 : Fin 2) * 128 + 128
    omega

/-- The messages after region 6: `message` of the arrays the region found. -/
theorem final (c : Dev nD) : (dat6 V c).arrAt 2 cfg6.N = message (V c main_v58) (V c main_v3) :=
  (dat6 V c).arrAt_eq_of_cover 2 _ (fun t _ => flushed_eq V c t) cover

end Cert.KernelIdeal.Reg6

end
-- ==== Proof.Reg7.lean ====
/-
  Region 7 (the node update of layer 3), from blocks to the whole array.

  The grid has ten points; point `t` loads rows `5000 t … 5000 t + 4999` of the node features and of the aggregated
  messages, the two whole weight matrices and the two whole bias rows, and writes back the same rows of the new node
  features. `update` is computed row by row, so what point `t` writes back is its block of `update` of the whole
  arrays, and the ten blocks tile the 50000 rows.
-/
import proofs.«171168_j16716012716418_1_alg».proof.Proof.Gen.KernelIdeal.Frame
import proofs.«171168_j16716012716418_1_alg».proof.Proof.KPay

set_option maxRecDepth 16384

noncomputable section

namespace Cert.KernelIdeal.Reg7

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block `t`. -/
theorem idx_rows : ∀ t : Fin cfg7.N,
    win7_0.index t (0 : Fin 2) = t.val ∧ win7_0.index t (1 : Fin 2) = 0
    ∧ win7_1.index t (0 : Fin 2) = t.val ∧ win7_1.index t (1 : Fin 2) = 0
    ∧ win7_6.index t (0 : Fin 2) = t.val ∧ win7_6.index t (1 : Fin 2) = 0 :=
  (by decide +kernel : ∀ t : Fin grid7.N, _)

/-- The weights' and biases' windows sit at block 0: each is its whole array. -/
theorem idx_whole : ∀ t : Fin cfg7.N,
    (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0) :=
  (by decide +kernel : ∀ t : Fin grid7.N, _)

/-- Row `p` of point `t`'s block is row `5000 t + p` of the array. -/
def rowOf (t : Fin cfg7.N) (p : Fin 5000) : Fin 50000 :=
  ⟨5000 * t.val + p.val, by have ht : t.val < 10 := t.isLt; have := p.isLt; omega⟩

theorem emb0 (t : Fin cfg7.N) (y : S5000x128.Idx) : ((cfg7.win 0).blk t).view.emb y = ix2 (rowOf t (y 0)) (y 1) := by
  obtain ⟨e0, e1, -⟩ := idx_rows t
  funext a; apply Fin.ext
  match a with
  | ⟨0, _⟩ => show win7_0.index t (0 : Fin 2) * 5000 + 1 * (y 0).val = 5000 * t.val + (y 0).val; omega
  | ⟨1, _⟩ => show win7_0.index t (1 : Fin 2) * 128 + 1 * (y 1).val = (y 1).val; omega

theorem emb1 (t : Fin cfg7.N) (y : S5000x128.Idx) : ((cfg7.win 1).blk t).view.emb y = ix2 (rowOf t (y 0)) (y 1) := by
  obtain ⟨-, -, e0, e1, -⟩ := idx_rows t
  funext a; apply Fin.ext
  match a with
  | ⟨0, _⟩ => show win7_1.index t (0 : Fin 2) * 5000 + 1 * (y 0).val = 5000 * t.val + (y 0).val; omega
  | ⟨1, _⟩ => show win7_1.index t (1 : Fin 2) * 128 + 1 * (y 1).val = (y 1).val; omega

theorem emb2 (t : Fin cfg7.N) (y : S128x128.Idx) : ((cfg7.win 2).blk t).view.emb y = y := by
  have e0 : win7_2.index t (0 : Fin 2) = 0 := (idx_whole t).1.1
  have e1 : win7_2.index t (1 : Fin 2) = 0 := (idx_whole t).1.2
  funext a; apply Fin.ext
  match a with
  | ⟨0, _⟩ => show win7_2.index t (0 : Fin 2) * 128 + 1 * (y 0).val = (y 0).val; omega
  | ⟨1, _⟩ => show win7_2.index t (1 : Fin 2) * 128 + 1 * (y 1).val = (y 1).val; omega

theorem emb3 (t : Fin cfg7.N) (y : S1x128.Idx) : ((cfg7.win 3).blk t).view.emb y = y := by
  have e0 : win7_3.index t (0 : Fin 2) = 0 := (idx_whole t).2.1.1
  have e1 : win7_3.index t (1 : Fin 2) = 0 := (idx_whole t).2.1.2
  funext a; apply Fin.ext
  match a with
  | ⟨0, _⟩ => show win7_3.index t (0 : Fin 2) * 1 + 1 * (y 0).val = (y 0).val; omega
  | ⟨1, _⟩ => show win7_3.index t (1 : Fin 2) * 128 + 1 * (y 1).val = (y 1).val; omega

theorem emb4 (t : Fin cfg7.N) (y : S128x128.Idx) : ((cfg7.win 4).blk t).view.emb y = y := by
  have e0 : win7_4.index t (0 : Fin 2) = 0 := (idx_whole t).2.2.1.1
  have e1 : win7_4.index t (1 : Fin 2) = 0 := (idx_whole t).2.2.1.2
  funext a; apply Fin.ext
  match a with
  | ⟨0, _⟩ => show win7_4.index t (0 : Fin 2) * 128 + 1 * (y 0).val = (y 0).val; omega
  | ⟨1, _⟩ => show win7_4.index t (1 : Fin 2) * 128 + 1 * (y 1).val = (y 1).val; omega

theorem emb5 (t : Fin cfg7.N) (y : S1x128.Idx) : ((cfg7.win 5).blk t).view.emb y = y := by
  have e0 : win7_5.index t (0 : Fin 2) = 0 := (idx_whole t).2.2.2.1
  have e1 : win7_5.index t (1 : Fin 2) = 0 := (idx_whole t).2.2.2.2
  funext a; apply Fin.ext
  match a with
  | ⟨0, _⟩ => show win7_5.index t (0 : Fin 2) * 1 + 1 * (y 0).val = (y 0).val; omega
  | ⟨1, _⟩ => show win7_5.index t (1 : Fin 2) * 128 + 1 * (y 1).val = (y 1).val; omega

theorem emb6 (t : Fin cfg7.N) (y : S5000x128.Idx) : ((cfg7.win 6).blk t).view.emb y = ix2 (rowOf t (y 0)) (y 1) := by
  obtain ⟨-, -, -, -, e0, e1⟩ := idx_rows t
  funext a; apply Fin.ext
  match a with
  | ⟨0, _⟩ => show win7_6.index t (0 : Fin 2) * 5000 + 1 * (y 0).val = 5000 * t.val + (y 0).val; omega
  | ⟨1, _⟩ => show win7_6.index t (1 : Fin 2) * 128 + 1 * (y 1).val = (y 1).val; omega

/-- The blocks point `t` loads, read off the arrays as the region finds them. -/
theorem blk0 (c : Dev nD) (t : Fin cfg7.N) :
    iblk7 V c 0 t = fun y : S5000x128.Idx => V c main_v51 (ix2 (rowOf t (y 0)) (y 1)) :=
  funext fun y => show V c main_v51 (((cfg7.win 0).blk t).view.emb y) = _ from congrArg (V c main_v51) (emb0 t y)

theorem blk1 (c : Dev nD) (t : Fin cfg7.N) :
    iblk7 V c 1 t = fun y : S5000x128.Idx => V c main_v62 (ix2 (rowOf t (y 0)) (y 1)) :=
  funext fun y => show V c main_v62 (((cfg7.win 1).blk t).view.emb y) = _ from congrArg (V c main_v62) (emb1 t y)

theorem blk2 (c : Dev nD) (t : Fin cfg7.N) : iblk7 V c 2 t = V c main_v64 :=
  funext fun y => show V c main_v64 (((cfg7.win 2).blk t).view.emb y) = _ from congrArg (V c main_v64) (emb2 t y)

theorem blk3 (c : Dev nD) (t : Fin cfg7.N) : iblk7 V c 3 t = V c main_v67 :=
  funext fun y => show V c main_v67 (((cfg7.win 3).blk t).view.emb y) = _ from congrArg (V c main_v67) (emb3 t y)

theorem blk4 (c : Dev nD) (t : Fin cfg7.N) : iblk7 V c 4 t = V c main_v69 :=
  funext fun y => show V c main_v69 (((cfg7.win 4).blk t).view.emb y) = _ from congrArg (V c main_v69) (emb4 t y)

theorem blk5 (c : Dev nD) (t : Fin cfg7.N) : iblk7 V c 5 t = V c main_v72 :=
  funext fun y => show V c main_v72 (((cfg7.win 5).blk t).view.emb y) = _ from congrArg (V c main_v72) (emb5 t y)

/-- What point `t` writes back is its block of `update` of the arrays as the region finds them. -/
theorem flushed_eq (c : Dev nD) (t : Fin cfg7.N) :
    (dat7 V c).flushed 6 t = ((cfg7.win 6).blk t).view.read (Elt Ideal)
      (update 50000 128 (V c main_v51) (V c main_v62) (V c main_v64) (V c main_v67) (V c main_v69) (V c main_v72)) := by
  show (cfg7.win 6).cut (grid7.coords t) ((dat7 V c).after 6 t) = _
  rw [after7_6]
  unfold out7_6
  rw [View.canon_unit_zero hz]
  simp only [View.ld_unit_zero (S := S5000x128) hz, View.ld_unit_zero (S := S128x128) hz, View.ld_unit_zero (S := S1x128) hz]
  rw [Pay.nodeUpdate7, blk0 V c t, blk1 V c t, blk2 V c t, blk3 V c t, blk4 V c t, blk5 V c t]
  funext j
  show update 5000 128 (fun y : S5000x128.Idx => V c main_v51 (ix2 (rowOf t (y 0)) (y 1)))
      (fun y : S5000x128.Idx => V c main_v62 (ix2 (rowOf t (y 0)) (y 1))) (V c main_v64) (V c main_v67) (V c main_v69) (V c main_v72) j
    = update 50000 128 (V c main_v51) (V c main_v62) (V c main_v64) (V c main_v67) (V c main_v69) (V c main_v72)
        (((cfg7.win 6).blk t).view.emb j)
  rw [emb6 t j]
  exact update_rows 50000 5000 128 (V c main_v51) (V c main_v62) (V c main_v64) (V c main_v67) (V c main_v69) (V c main_v72) (rowOf t) j

/-- An index of the result is in point `t`'s block iff each coordinate is in the block's range on its axis. -/
theorem mem_blk (t : Fin cfg7.N) (i : S50000x128.Idx) :
    i ∈ ((cfg7.win 6).blk t).view.set ↔ ∀ a : Fin 2, win7_6.index t a * S5000x128.size a ≤ (i a).val
      ∧ (i a).val < win7_6.index t a * S5000x128.size a + S5000x128.size a := by
  show i ∈ ((View.whole main_v73).slice (win7_6.rect t)).set ↔ _
  rw [View.set_slice_whole, Rect.mem_set_unit]
  exact Iff.rfl

/-- Row `r` of the result is written by point `r / 5000`. -/
theorem cover (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  have ht : (i 0).val / 5000 < 10 := by omega
  refine ⟨⟨(i 0).val / 5000, ht⟩, flush7_6 _, ?_⟩
  rw [mem_blk]
  obtain ⟨-, -, -, -, e0, e1⟩ := idx_rows ⟨(i 0).val / 5000, ht⟩
  have e0' : win7_6.index ⟨(i 0).val / 5000, ht⟩ (0 : Fin 2) = (i 0).val / 5000 := e0
  intro a
  match a with
  | ⟨0, _⟩ =>
    show win7_6.index ⟨(i 0).val / 5000, ht⟩ (0 : Fin 2) * 5000 ≤ (i 0).val
      ∧ (i 0).val < win7_6.index ⟨(i 0).val / 5000, ht⟩ (0 : Fin 2) * 5000 + 5000
    omega
  | ⟨1, _⟩ =>
    show win7_6.index ⟨(i 0).val / 5000, ht⟩ (1 : Fin 2) * 128 ≤ (i 1).val
      ∧ (i 1).val < win7_6.index ⟨(i 0).val / 5000, ht⟩ (1 : Fin 2) * 128 + 128
    omega

/-- The node features after region 7: `update` of the arrays the region found. -/
theorem final (c : Dev nD) :
    (dat7 V c).arrAt 6 cfg7.N
      = update 50000 128 (V c main_v51) (V c main_v62) (V c main_v64) (V c main_v67) (V c main_v69) (V c main_v72) :=
  (dat7 V c).arrAt_eq_of_cover 6 _ (fun t _ => flushed_eq V c t) cover

end Cert.KernelIdeal.Reg7

end
-- ==== Proof.KChain.lean ====
/-
  The last boundary's contents at the result buffer, read back to the launch memory.

  The run leaves every buffer at a fold over @main's fifteen segments. Walking the segments in order: a stretch of
  host operations writes its results as its operations' functions of what it reads and leaves every other buffer
  alone; a kernel region leaves its output array at the layer's function of its input arrays (the region modules) and
  every other buffer alone. A buffer read later than it is written is carried across the segments between.
  At the end the result buffer holds the network's function `Net.out` of the eleven argument arrays.
-/
import proofs.«171168_j16716012716418_1_alg».proof.Proof.Gen.KernelIdeal.Frame
import proofs.«171168_j16716012716418_1_alg».proof.Proof.KNet
import proofs.«171168_j16716012716418_1_alg».proof.Proof.Reg0
import proofs.«171168_j16716012716418_1_alg».proof.Proof.Reg1
import proofs.«171168_j16716012716418_1_alg».proof.Proof.Reg2
import proofs.«171168_j16716012716418_1_alg».proof.Proof.Reg3
import proofs.«171168_j16716012716418_1_alg».proof.Proof.Reg4
import proofs.«171168_j16716012716418_1_alg».proof.Proof.Reg5
import proofs.«171168_j16716012716418_1_alg».proof.Proof.Reg6
import proofs.«171168_j16716012716418_1_alg».proof.Proof.Reg7

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem Cert.Gnn
open Idealize.ShloMosaic.Pipeline (Dat)

variable (m : (ℓ : Loc nD τ sig) → Buf (Elt Ideal) ℓ) (ρ : Dev nD → PrngReg) (c : Dev nD)

theorem arg0_at1 : W1 m ρ c (Proc.devRef .tc main_arg0) = (m ((c : Thread nD τ).loc main_arg0)) :=
  (calc W1 m ρ c (Proc.devRef .tc main_arg0)
    _ = W0 m ρ c (Proc.devRef .tc main_arg0) := by dsimp only [W1]; after_results).trans rfl

theorem arg3_at1 : W1 m ρ c (Proc.devRef .tc main_arg3) = (m ((c : Thread nD τ).loc main_arg3)) :=
  (calc W1 m ρ c (Proc.devRef .tc main_arg3)
    _ = W0 m ρ c (Proc.devRef .tc main_arg3) := by dsimp only [W1]; after_results).trans rfl

theorem at1_v0 : W1 m ρ c (Proc.devRef .tc main_v0) = Net.biasRow (m ((c : Thread nD τ).loc main_arg4)) :=
  by
  dsimp only [W1]
  after_results
  rfl

theorem at1_v1 : W1 m ρ c (Proc.devRef .tc main_v1) = Net.biasRow (m ((c : Thread nD τ).loc main_arg6)) :=
  by
  dsimp only [W1]
  after_results
  rfl

theorem at2_v2 : W2 m ρ c (Proc.devRef .tc main_v2) = Net.x0 (m ((c : Thread nD τ).loc main_arg0)) (m ((c : Thread nD τ).loc main_arg3)) (m ((c : Thread nD τ).loc main_arg4)) :=
  (W2_arr m ρ c 3).trans ((Reg0.final (V1 m ρ) c).trans (by
    rw [show V1 m ρ c main_arg0 = _ from arg0_at1 m ρ c,
      show V1 m ρ c main_arg3 = _ from arg3_at1 m ρ c,
      show V1 m ρ c main_v0 = _ from at1_v0 m ρ c]
    rfl))

theorem arg2_at2 : W2 m ρ c (Proc.devRef .tc main_arg2) = (m ((c : Thread nD τ).loc main_arg2)) :=
  (calc W2 m ρ c (Proc.devRef .tc main_arg2)
    _ = W1 m ρ c (Proc.devRef .tc main_arg2) := W2_of_ne m ρ c main_arg2 (by decide)
    _ = W0 m ρ c (Proc.devRef .tc main_arg2) := by dsimp only [W1]; after_results).trans rfl

theorem arg5_at2 : W2 m ρ c (Proc.devRef .tc main_arg5) = (m ((c : Thread nD τ).loc main_arg5)) :=
  (calc W2 m ρ c (Proc.devRef .tc main_arg5)
    _ = W1 m ρ c (Proc.devRef .tc main_arg5) := W2_of_ne m ρ c main_arg5 (by decide)
    _ = W0 m ρ c (Proc.devRef .tc main_arg5) := by dsimp only [W1]; after_results).trans rfl

theorem at2_v1 : W2 m ρ c (Proc.devRef .tc main_v1) = Net.biasRow (m ((c : Thread nD τ).loc main_arg6)) :=
  (calc W2 m ρ c (Proc.devRef .tc main_v1)
    _ = W1 m ρ c (Proc.devRef .tc main_v1) := W2_of_ne m ρ c main_v1 (by decide)).trans (at1_v1 m ρ c)

theorem at3_v3 : W3 m ρ c (Proc.devRef .tc main_v3) = Net.edges (m ((c : Thread nD τ).loc main_arg2)) (m ((c : Thread nD τ).loc main_arg5)) (m ((c : Thread nD τ).loc main_arg6)) :=
  (W3_arr m ρ c 3).trans ((Reg1.final (V2 m ρ) c).trans (by
    rw [show V2 m ρ c main_arg2 = _ from arg2_at2 m ρ c,
      show V2 m ρ c main_arg5 = _ from arg5_at2 m ρ c,
      show V2 m ρ c main_v1 = _ from at2_v1 m ρ c]
    rfl))

theorem at3_v2 : W3 m ρ c (Proc.devRef .tc main_v2) = Net.x0 (m ((c : Thread nD τ).loc main_arg0)) (m ((c : Thread nD τ).loc main_arg3)) (m ((c : Thread nD τ).loc main_arg4)) :=
  (calc W3 m ρ c (Proc.devRef .tc main_v2)
    _ = W2 m ρ c (Proc.devRef .tc main_v2) := W3_of_ne m ρ c main_v2 (by decide)).trans (at2_v2 m ρ c)

theorem arg1_at3 : W3 m ρ c (Proc.devRef .tc main_arg1) = (m ((c : Thread nD τ).loc main_arg1)) :=
  (calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := by dsimp only [W1]; after_results).trans rfl

theorem at4_v5 : W4 m ρ c (Proc.devRef .tc main_v5) = Net.src (m ((c : Thread nD τ).loc main_arg1)) :=
  by
  dsimp only [W4]
  after_results
  rw [arg1_at3 m ρ c]
  rfl

theorem at4_v7 : W4 m ρ c (Proc.devRef .tc main_v7) = Net.dst (m ((c : Thread nD τ).loc main_arg1)) :=
  by
  dsimp only [W4]
  after_results
  rw [arg1_at3 m ρ c]
  rfl

theorem at4_v14 : W4 m ρ c (Proc.devRef .tc main_v14) = Net.gathered (m ((c : Thread nD τ).loc main_arg1)) (Net.x0 (m ((c : Thread nD τ).loc main_arg0)) (m ((c : Thread nD τ).loc main_arg3)) (m ((c : Thread nD τ).loc main_arg4))) :=
  by
  dsimp only [W4]
  after_results
  rw [at3_v2 m ρ c, arg1_at3 m ρ c]
  rfl

theorem at4_v3 : W4 m ρ c (Proc.devRef .tc main_v3) = Net.edges (m ((c : Thread nD τ).loc main_arg2)) (m ((c : Thread nD τ).loc main_arg5)) (m ((c : Thread nD τ).loc main_arg6)) :=
  (calc W4 m ρ c (Proc.devRef .tc main_v3)
    _ = W3 m ρ c (Proc.devRef .tc main_v3) := by dsimp only [W4]; after_results).trans (at3_v3 m ρ c)

theorem at4_v2 : W4 m ρ c (Proc.devRef .tc main_v2) = Net.x0 (m ((c : Thread nD τ).loc main_arg0)) (m ((c : Thread nD τ).loc main_arg3)) (m ((c : Thread nD τ).loc main_arg4)) :=
  (calc W4 m ρ c (Proc.devRef .tc main_v2)
    _ = W3 m ρ c (Proc.devRef .tc main_v2) := by dsimp only [W4]; after_results).trans (at3_v2 m ρ c)

theorem at5_v15 : W5 m ρ c (Proc.devRef .tc main_v15) = message (Net.gathered (m ((c : Thread nD τ).loc main_arg1)) (Net.x0 (m ((c : Thread nD τ).loc main_arg0)) (m ((c : Thread nD τ).loc main_arg3)) (m ((c : Thread nD τ).loc main_arg4)))) (Net.edges (m ((c : Thread nD τ).loc main_arg2)) (m ((c : Thread nD τ).loc main_arg5)) (m ((c : Thread nD τ).loc main_arg6))) :=
  (W5_arr m ρ c 2).trans ((Reg2.final (V4 m ρ) c).trans (by
    rw [show V4 m ρ c main_v14 = _ from at4_v14 m ρ c,
      show V4 m ρ c main_v3 = _ from at4_v3 m ρ c]))

theorem at5_v3 : W5 m ρ c (Proc.devRef .tc main_v3) = Net.edges (m ((c : Thread nD τ).loc main_arg2)) (m ((c : Thread nD τ).loc main_arg5)) (m ((c : Thread nD τ).loc main_arg6)) :=
  (calc W5 m ρ c (Proc.devRef .tc main_v3)
    _ = W4 m ρ c (Proc.devRef .tc main_v3) := (W5_arr m ρ c 1).trans (((dat2 (V4 m ρ) c).arrAt_in 1 rfl _).trans (A_eq2 (V4 m ρ) c 1))).trans (at4_v3 m ρ c)

theorem at5_v2 : W5 m ρ c (Proc.devRef .tc main_v2) = Net.x0 (m ((c : Thread nD τ).loc main_arg0)) (m ((c : Thread nD τ).loc main_arg3)) (m ((c : Thread nD τ).loc main_arg4)) :=
  (calc W5 m ρ c (Proc.devRef .tc main_v2)
    _ = W4 m ρ c (Proc.devRef .tc main_v2) := W5_of_ne m ρ c main_v2 (by decide)).trans (at4_v2 m ρ c)

theorem at5_v5 : W5 m ρ c (Proc.devRef .tc main_v5) = Net.src (m ((c : Thread nD τ).loc main_arg1)) :=
  (calc W5 m ρ c (Proc.devRef .tc main_v5)
    _ = W4 m ρ c (Proc.devRef .tc main_v5) := W5_of_ne m ρ c main_v5 (by decide)).trans (at4_v5 m ρ c)

theorem at5_v7 : W5 m ρ c (Proc.devRef .tc main_v7) = Net.dst (m ((c : Thread nD τ).loc main_arg1)) :=
  (calc W5 m ρ c (Proc.devRef .tc main_v7)
    _ = W4 m ρ c (Proc.devRef .tc main_v7) := W5_of_ne m ρ c main_v7 (by decide)).trans (at4_v7 m ρ c)

theorem arg7_at5 : W5 m ρ c (Proc.devRef .tc main_arg7) = (m ((c : Thread nD τ).loc main_arg7)) :=
  (calc W5 m ρ c (Proc.devRef .tc main_arg7)
    _ = W4 m ρ c (Proc.devRef .tc main_arg7) := W5_of_ne m ρ c main_arg7 (by decide)
    _ = W3 m ρ c (Proc.devRef .tc main_arg7) := by dsimp only [W4]; after_results
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by dsimp only [W1]; after_results).trans rfl

theorem arg8_at5 : W5 m ρ c (Proc.devRef .tc main_arg8) = (m ((c : Thread nD τ).loc main_arg8)) :=
  (calc W5 m ρ c (Proc.devRef .tc main_arg8)
    _ = W4 m ρ c (Proc.devRef .tc main_arg8) := W5_of_ne m ρ c main_arg8 (by decide)
    _ = W3 m ρ c (Proc.devRef .tc main_arg8) := by dsimp only [W4]; after_results
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by dsimp only [W1]; after_results).trans rfl

theorem arg9_at5 : W5 m ρ c (Proc.devRef .tc main_arg9) = (m ((c : Thread nD τ).loc main_arg9)) :=
  (calc W5 m ρ c (Proc.devRef .tc main_arg9)
    _ = W4 m ρ c (Proc.devRef .tc main_arg9) := W5_of_ne m ρ c main_arg9 (by decide)
    _ = W3 m ρ c (Proc.devRef .tc main_arg9) := by dsimp only [W4]; after_results
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by dsimp only [W1]; after_results).trans rfl

theorem arg10_at5 : W5 m ρ c (Proc.devRef .tc main_arg10) = (m ((c : Thread nD τ).loc main_arg10)) :=
  (calc W5 m ρ c (Proc.devRef .tc main_arg10)
    _ = W4 m ρ c (Proc.devRef .tc main_arg10) := W5_of_ne m ρ c main_arg10 (by decide)
    _ = W3 m ρ c (Proc.devRef .tc main_arg10) := by dsimp only [W4]; after_results
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by dsimp only [W1]; after_results).trans rfl

theorem at6_v18 : W6 m ρ c (Proc.devRef .tc main_v18) = Net.aggregated (m ((c : Thread nD τ).loc main_arg1)) (message (Net.gathered (m ((c : Thread nD τ).loc main_arg1)) (Net.x0 (m ((c : Thread nD τ).loc main_arg0)) (m ((c : Thread nD τ).loc main_arg3)) (m ((c : Thread nD τ).loc main_arg4)))) (Net.edges (m ((c : Thread nD τ).loc main_arg2)) (m ((c : Thread nD τ).loc main_arg5)) (m ((c : Thread nD τ).loc main_arg6)))) :=
  by
  dsimp only [W6]
  after_results
  rw [at5_v7 m ρ c, at5_v15 m ρ c]
  rfl

theorem at6_v20 : W6 m ρ c (Proc.devRef .tc main_v20) = Net.wmat0 (m ((c : Thread nD τ).loc main_arg7)) :=
  by
  dsimp only [W6]
  after_results
  rw [arg7_at5 m ρ c]
  rfl

theorem at6_v23 : W6 m ρ c (Proc.devRef .tc main_v23) = Net.brow0 (m ((c : Thread nD τ).loc main_arg8)) :=
  by
  dsimp only [W6]
  after_results
  rw [arg8_at5 m ρ c]
  rfl

theorem at6_v25 : W6 m ρ c (Proc.devRef .tc main_v25) = Net.wmat0 (m ((c : Thread nD τ).loc main_arg9)) :=
  by
  dsimp only [W6]
  after_results
  rw [arg9_at5 m ρ c]
  rfl

theorem at6_v28 : W6 m ρ c (Proc.devRef .tc main_v28) = Net.brow0 (m ((c : Thread nD τ).loc main_arg10)) :=
  by
  dsimp only [W6]
  after_results
  rw [arg10_at5 m ρ c]
  rfl

theorem at6_v2 : W6 m ρ c (Proc.devRef .tc main_v2) = Net.x0 (m ((c : Thread nD τ).loc main_arg0)) (m ((c : Thread nD τ).loc main_arg3)) (m ((c : Thread nD τ).loc main_arg4)) :=
  (calc W6 m ρ c (Proc.devRef .tc main_v2)
    _ = W5 m ρ c (Proc.devRef .tc main_v2) := by dsimp only [W6]; after_results).trans (at5_v2 m ρ c)

theorem at6_v3 : W6 m ρ c (Proc.devRef .tc main_v3) = Net.edges (m ((c : Thread nD τ).loc main_arg2)) (m ((c : Thread nD τ).loc main_arg5)) (m ((c : Thread nD τ).loc main_arg6)) :=
  (calc W6 m ρ c (Proc.devRef .tc main_v3)
    _ = W5 m ρ c (Proc.devRef .tc main_v3) := by dsimp only [W6]; after_results).trans (at5_v3 m ρ c)

theorem at6_v5 : W6 m ρ c (Proc.devRef .tc main_v5) = Net.src (m ((c : Thread nD τ).loc main_arg1)) :=
  (calc W6 m ρ c (Proc.devRef .tc main_v5)
    _ = W5 m ρ c (Proc.devRef .tc main_v5) := by dsimp only [W6]; after_results).trans (at5_v5 m ρ c)

theorem at6_v7 : W6 m ρ c (Proc.devRef .tc main_v7) = Net.dst (m ((c : Thread nD τ).loc main_arg1)) :=
  (calc W6 m ρ c (Proc.devRef .tc main_v7)
    _ = W5 m ρ c (Proc.devRef .tc main_v7) := by dsimp only [W6]; after_results).trans (at5_v7 m ρ c)

theorem at7_v29 : W7 m ρ c (Proc.devRef .tc main_v29) = Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10))) :=
  (W7_arr m ρ c 6).trans ((Reg3.final (V6 m ρ) c).trans (by
    rw [show V6 m ρ c main_v2 = _ from at6_v2 m ρ c,
      show V6 m ρ c main_v18 = _ from at6_v18 m ρ c,
      show V6 m ρ c main_v20 = _ from at6_v20 m ρ c,
      show V6 m ρ c main_v23 = _ from at6_v23 m ρ c,
      show V6 m ρ c main_v25 = _ from at6_v25 m ρ c,
      show V6 m ρ c main_v28 = _ from at6_v28 m ρ c]
    rfl))

theorem at7_v3 : W7 m ρ c (Proc.devRef .tc main_v3) = Net.edges (m ((c : Thread nD τ).loc main_arg2)) (m ((c : Thread nD τ).loc main_arg5)) (m ((c : Thread nD τ).loc main_arg6)) :=
  (calc W7 m ρ c (Proc.devRef .tc main_v3)
    _ = W6 m ρ c (Proc.devRef .tc main_v3) := W7_of_ne m ρ c main_v3 (by decide)).trans (at6_v3 m ρ c)

theorem at7_v5 : W7 m ρ c (Proc.devRef .tc main_v5) = Net.src (m ((c : Thread nD τ).loc main_arg1)) :=
  (calc W7 m ρ c (Proc.devRef .tc main_v5)
    _ = W6 m ρ c (Proc.devRef .tc main_v5) := W7_of_ne m ρ c main_v5 (by decide)).trans (at6_v5 m ρ c)

theorem at7_v7 : W7 m ρ c (Proc.devRef .tc main_v7) = Net.dst (m ((c : Thread nD τ).loc main_arg1)) :=
  (calc W7 m ρ c (Proc.devRef .tc main_v7)
    _ = W6 m ρ c (Proc.devRef .tc main_v7) := W7_of_ne m ρ c main_v7 (by decide)).trans (at6_v7 m ρ c)

set_option maxHeartbeats 1600000 in
theorem at8_v36 : W8 m ρ c (Proc.devRef .tc main_v36) = Net.gathered (m ((c : Thread nD τ).loc main_arg1)) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) :=
  by
  dsimp only [W8]
  after_results
  rw [at7_v29 m ρ c, at7_v5 m ρ c]
  rfl

theorem at8_v3 : W8 m ρ c (Proc.devRef .tc main_v3) = Net.edges (m ((c : Thread nD τ).loc main_arg2)) (m ((c : Thread nD τ).loc main_arg5)) (m ((c : Thread nD τ).loc main_arg6)) :=
  (calc W8 m ρ c (Proc.devRef .tc main_v3)
    _ = W7 m ρ c (Proc.devRef .tc main_v3) := by dsimp only [W8]; after_results).trans (at7_v3 m ρ c)

theorem at8_v29 : W8 m ρ c (Proc.devRef .tc main_v29) = Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10))) :=
  (calc W8 m ρ c (Proc.devRef .tc main_v29)
    _ = W7 m ρ c (Proc.devRef .tc main_v29) := by dsimp only [W8]; after_results).trans (at7_v29 m ρ c)

theorem at8_v5 : W8 m ρ c (Proc.devRef .tc main_v5) = Net.src (m ((c : Thread nD τ).loc main_arg1)) :=
  (calc W8 m ρ c (Proc.devRef .tc main_v5)
    _ = W7 m ρ c (Proc.devRef .tc main_v5) := by dsimp only [W8]; after_results).trans (at7_v5 m ρ c)

theorem at8_v7 : W8 m ρ c (Proc.devRef .tc main_v7) = Net.dst (m ((c : Thread nD τ).loc main_arg1)) :=
  (calc W8 m ρ c (Proc.devRef .tc main_v7)
    _ = W7 m ρ c (Proc.devRef .tc main_v7) := by dsimp only [W8]; after_results).trans (at7_v7 m ρ c)

theorem at9_v37 : W9 m ρ c (Proc.devRef .tc main_v37) = message (Net.gathered (m ((c : Thread nD τ).loc main_arg1)) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10))))) (Net.edges (m ((c : Thread nD τ).loc main_arg2)) (m ((c : Thread nD τ).loc main_arg5)) (m ((c : Thread nD τ).loc main_arg6))) :=
  (W9_arr m ρ c 2).trans ((Reg4.final (V8 m ρ) c).trans (by
    rw [show V8 m ρ c main_v36 = _ from at8_v36 m ρ c,
      show V8 m ρ c main_v3 = _ from at8_v3 m ρ c]))

theorem at9_v3 : W9 m ρ c (Proc.devRef .tc main_v3) = Net.edges (m ((c : Thread nD τ).loc main_arg2)) (m ((c : Thread nD τ).loc main_arg5)) (m ((c : Thread nD τ).loc main_arg6)) :=
  (calc W9 m ρ c (Proc.devRef .tc main_v3)
    _ = W8 m ρ c (Proc.devRef .tc main_v3) := (W9_arr m ρ c 1).trans (((dat4 (V8 m ρ) c).arrAt_in 1 rfl _).trans (A_eq4 (V8 m ρ) c 1))).trans (at8_v3 m ρ c)

theorem at9_v29 : W9 m ρ c (Proc.devRef .tc main_v29) = Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10))) :=
  (calc W9 m ρ c (Proc.devRef .tc main_v29)
    _ = W8 m ρ c (Proc.devRef .tc main_v29) := W9_of_ne m ρ c main_v29 (by decide)).trans (at8_v29 m ρ c)

theorem at9_v5 : W9 m ρ c (Proc.devRef .tc main_v5) = Net.src (m ((c : Thread nD τ).loc main_arg1)) :=
  (calc W9 m ρ c (Proc.devRef .tc main_v5)
    _ = W8 m ρ c (Proc.devRef .tc main_v5) := W9_of_ne m ρ c main_v5 (by decide)).trans (at8_v5 m ρ c)

theorem at9_v7 : W9 m ρ c (Proc.devRef .tc main_v7) = Net.dst (m ((c : Thread nD τ).loc main_arg1)) :=
  (calc W9 m ρ c (Proc.devRef .tc main_v7)
    _ = W8 m ρ c (Proc.devRef .tc main_v7) := W9_of_ne m ρ c main_v7 (by decide)).trans (at8_v7 m ρ c)

theorem arg7_at9 : W9 m ρ c (Proc.devRef .tc main_arg7) = (m ((c : Thread nD τ).loc main_arg7)) :=
  (calc W9 m ρ c (Proc.devRef .tc main_arg7)
    _ = W8 m ρ c (Proc.devRef .tc main_arg7) := W9_of_ne m ρ c main_arg7 (by decide)
    _ = W7 m ρ c (Proc.devRef .tc main_arg7) := by dsimp only [W8]; after_results
    _ = W6 m ρ c (Proc.devRef .tc main_arg7) := W7_of_ne m ρ c main_arg7 (by decide)
    _ = W5 m ρ c (Proc.devRef .tc main_arg7) := by dsimp only [W6]; after_results).trans (arg7_at5 m ρ c)

theorem arg8_at9 : W9 m ρ c (Proc.devRef .tc main_arg8) = (m ((c : Thread nD τ).loc main_arg8)) :=
  (calc W9 m ρ c (Proc.devRef .tc main_arg8)
    _ = W8 m ρ c (Proc.devRef .tc main_arg8) := W9_of_ne m ρ c main_arg8 (by decide)
    _ = W7 m ρ c (Proc.devRef .tc main_arg8) := by dsimp only [W8]; after_results
    _ = W6 m ρ c (Proc.devRef .tc main_arg8) := W7_of_ne m ρ c main_arg8 (by decide)
    _ = W5 m ρ c (Proc.devRef .tc main_arg8) := by dsimp only [W6]; after_results).trans (arg8_at5 m ρ c)

theorem arg9_at9 : W9 m ρ c (Proc.devRef .tc main_arg9) = (m ((c : Thread nD τ).loc main_arg9)) :=
  (calc W9 m ρ c (Proc.devRef .tc main_arg9)
    _ = W8 m ρ c (Proc.devRef .tc main_arg9) := W9_of_ne m ρ c main_arg9 (by decide)
    _ = W7 m ρ c (Proc.devRef .tc main_arg9) := by dsimp only [W8]; after_results
    _ = W6 m ρ c (Proc.devRef .tc main_arg9) := W7_of_ne m ρ c main_arg9 (by decide)
    _ = W5 m ρ c (Proc.devRef .tc main_arg9) := by dsimp only [W6]; after_results).trans (arg9_at5 m ρ c)

theorem arg10_at9 : W9 m ρ c (Proc.devRef .tc main_arg10) = (m ((c : Thread nD τ).loc main_arg10)) :=
  (calc W9 m ρ c (Proc.devRef .tc main_arg10)
    _ = W8 m ρ c (Proc.devRef .tc main_arg10) := W9_of_ne m ρ c main_arg10 (by decide)
    _ = W7 m ρ c (Proc.devRef .tc main_arg10) := by dsimp only [W8]; after_results
    _ = W6 m ρ c (Proc.devRef .tc main_arg10) := W7_of_ne m ρ c main_arg10 (by decide)
    _ = W5 m ρ c (Proc.devRef .tc main_arg10) := by dsimp only [W6]; after_results).trans (arg10_at5 m ρ c)

theorem at10_v40 : W10 m ρ c (Proc.devRef .tc main_v40) = Net.aggregated (m ((c : Thread nD τ).loc main_arg1)) (message (Net.gathered (m ((c : Thread nD τ).loc main_arg1)) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10))))) (Net.edges (m ((c : Thread nD τ).loc main_arg2)) (m ((c : Thread nD τ).loc main_arg5)) (m ((c : Thread nD τ).loc main_arg6)))) :=
  by
  dsimp only [W10]
  after_results
  rw [at9_v7 m ρ c, at9_v37 m ρ c]
  rfl

theorem at10_v42 : W10 m ρ c (Proc.devRef .tc main_v42) = Net.wmat1 (m ((c : Thread nD τ).loc main_arg7)) :=
  by
  dsimp only [W10]
  after_results
  rw [arg7_at9 m ρ c]
  rfl

theorem at10_v45 : W10 m ρ c (Proc.devRef .tc main_v45) = Net.brow1 (m ((c : Thread nD τ).loc main_arg8)) :=
  by
  dsimp only [W10]
  after_results
  rw [arg8_at9 m ρ c]
  rfl

theorem at10_v47 : W10 m ρ c (Proc.devRef .tc main_v47) = Net.wmat1 (m ((c : Thread nD τ).loc main_arg9)) :=
  by
  dsimp only [W10]
  after_results
  rw [arg9_at9 m ρ c]
  rfl

theorem at10_v50 : W10 m ρ c (Proc.devRef .tc main_v50) = Net.brow1 (m ((c : Thread nD τ).loc main_arg10)) :=
  by
  dsimp only [W10]
  after_results
  rw [arg10_at9 m ρ c]
  rfl

theorem at10_v29 : W10 m ρ c (Proc.devRef .tc main_v29) = Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10))) :=
  (calc W10 m ρ c (Proc.devRef .tc main_v29)
    _ = W9 m ρ c (Proc.devRef .tc main_v29) := by dsimp only [W10]; after_results).trans (at9_v29 m ρ c)

theorem at10_v3 : W10 m ρ c (Proc.devRef .tc main_v3) = Net.edges (m ((c : Thread nD τ).loc main_arg2)) (m ((c : Thread nD τ).loc main_arg5)) (m ((c : Thread nD τ).loc main_arg6)) :=
  (calc W10 m ρ c (Proc.devRef .tc main_v3)
    _ = W9 m ρ c (Proc.devRef .tc main_v3) := by dsimp only [W10]; after_results).trans (at9_v3 m ρ c)

theorem at10_v5 : W10 m ρ c (Proc.devRef .tc main_v5) = Net.src (m ((c : Thread nD τ).loc main_arg1)) :=
  (calc W10 m ρ c (Proc.devRef .tc main_v5)
    _ = W9 m ρ c (Proc.devRef .tc main_v5) := by dsimp only [W10]; after_results).trans (at9_v5 m ρ c)

theorem at10_v7 : W10 m ρ c (Proc.devRef .tc main_v7) = Net.dst (m ((c : Thread nD τ).loc main_arg1)) :=
  (calc W10 m ρ c (Proc.devRef .tc main_v7)
    _ = W9 m ρ c (Proc.devRef .tc main_v7) := by dsimp only [W10]; after_results).trans (at9_v7 m ρ c)

theorem at11_v51 : W11 m ρ c (Proc.devRef .tc main_v51) = Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10))) :=
  (W11_arr m ρ c 6).trans ((Reg5.final (V10 m ρ) c).trans (by
    rw [show V10 m ρ c main_v29 = _ from at10_v29 m ρ c,
      show V10 m ρ c main_v40 = _ from at10_v40 m ρ c,
      show V10 m ρ c main_v42 = _ from at10_v42 m ρ c,
      show V10 m ρ c main_v45 = _ from at10_v45 m ρ c,
      show V10 m ρ c main_v47 = _ from at10_v47 m ρ c,
      show V10 m ρ c main_v50 = _ from at10_v50 m ρ c]
    rfl))

theorem at11_v3 : W11 m ρ c (Proc.devRef .tc main_v3) = Net.edges (m ((c : Thread nD τ).loc main_arg2)) (m ((c : Thread nD τ).loc main_arg5)) (m ((c : Thread nD τ).loc main_arg6)) :=
  (calc W11 m ρ c (Proc.devRef .tc main_v3)
    _ = W10 m ρ c (Proc.devRef .tc main_v3) := W11_of_ne m ρ c main_v3 (by decide)).trans (at10_v3 m ρ c)

theorem at11_v5 : W11 m ρ c (Proc.devRef .tc main_v5) = Net.src (m ((c : Thread nD τ).loc main_arg1)) :=
  (calc W11 m ρ c (Proc.devRef .tc main_v5)
    _ = W10 m ρ c (Proc.devRef .tc main_v5) := W11_of_ne m ρ c main_v5 (by decide)).trans (at10_v5 m ρ c)

theorem at11_v7 : W11 m ρ c (Proc.devRef .tc main_v7) = Net.dst (m ((c : Thread nD τ).loc main_arg1)) :=
  (calc W11 m ρ c (Proc.devRef .tc main_v7)
    _ = W10 m ρ c (Proc.devRef .tc main_v7) := W11_of_ne m ρ c main_v7 (by decide)).trans (at10_v7 m ρ c)

set_option maxHeartbeats 1600000 in
theorem at12_v58 : W12 m ρ c (Proc.devRef .tc main_v58) = Net.gathered (m ((c : Thread nD τ).loc main_arg1)) (Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10)))) :=
  by
  dsimp only [W12]
  after_results
  rw [at11_v51 m ρ c, at11_v5 m ρ c]
  rfl

theorem at12_v3 : W12 m ρ c (Proc.devRef .tc main_v3) = Net.edges (m ((c : Thread nD τ).loc main_arg2)) (m ((c : Thread nD τ).loc main_arg5)) (m ((c : Thread nD τ).loc main_arg6)) :=
  (calc W12 m ρ c (Proc.devRef .tc main_v3)
    _ = W11 m ρ c (Proc.devRef .tc main_v3) := by dsimp only [W12]; after_results).trans (at11_v3 m ρ c)

theorem at12_v51 : W12 m ρ c (Proc.devRef .tc main_v51) = Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10))) :=
  (calc W12 m ρ c (Proc.devRef .tc main_v51)
    _ = W11 m ρ c (Proc.devRef .tc main_v51) := by dsimp only [W12]; after_results).trans (at11_v51 m ρ c)

theorem at12_v7 : W12 m ρ c (Proc.devRef .tc main_v7) = Net.dst (m ((c : Thread nD τ).loc main_arg1)) :=
  (calc W12 m ρ c (Proc.devRef .tc main_v7)
    _ = W11 m ρ c (Proc.devRef .tc main_v7) := by dsimp only [W12]; after_results).trans (at11_v7 m ρ c)

theorem at13_v59 : W13 m ρ c (Proc.devRef .tc main_v59) = message (Net.gathered (m ((c : Thread nD τ).loc main_arg1)) (Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10))))) (Net.edges (m ((c : Thread nD τ).loc main_arg2)) (m ((c : Thread nD τ).loc main_arg5)) (m ((c : Thread nD τ).loc main_arg6))) :=
  (W13_arr m ρ c 2).trans ((Reg6.final (V12 m ρ) c).trans (by
    rw [show V12 m ρ c main_v58 = _ from at12_v58 m ρ c,
      show V12 m ρ c main_v3 = _ from at12_v3 m ρ c]))

theorem at13_v51 : W13 m ρ c (Proc.devRef .tc main_v51) = Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10))) :=
  (calc W13 m ρ c (Proc.devRef .tc main_v51)
    _ = W12 m ρ c (Proc.devRef .tc main_v51) := W13_of_ne m ρ c main_v51 (by decide)).trans (at12_v51 m ρ c)

theorem at13_v7 : W13 m ρ c (Proc.devRef .tc main_v7) = Net.dst (m ((c : Thread nD τ).loc main_arg1)) :=
  (calc W13 m ρ c (Proc.devRef .tc main_v7)
    _ = W12 m ρ c (Proc.devRef .tc main_v7) := W13_of_ne m ρ c main_v7 (by decide)).trans (at12_v7 m ρ c)

theorem arg7_at13 : W13 m ρ c (Proc.devRef .tc main_arg7) = (m ((c : Thread nD τ).loc main_arg7)) :=
  (calc W13 m ρ c (Proc.devRef .tc main_arg7)
    _ = W12 m ρ c (Proc.devRef .tc main_arg7) := W13_of_ne m ρ c main_arg7 (by decide)
    _ = W11 m ρ c (Proc.devRef .tc main_arg7) := by dsimp only [W12]; after_results
    _ = W10 m ρ c (Proc.devRef .tc main_arg7) := W11_of_ne m ρ c main_arg7 (by decide)
    _ = W9 m ρ c (Proc.devRef .tc main_arg7) := by dsimp only [W10]; after_results).trans (arg7_at9 m ρ c)

theorem arg8_at13 : W13 m ρ c (Proc.devRef .tc main_arg8) = (m ((c : Thread nD τ).loc main_arg8)) :=
  (calc W13 m ρ c (Proc.devRef .tc main_arg8)
    _ = W12 m ρ c (Proc.devRef .tc main_arg8) := W13_of_ne m ρ c main_arg8 (by decide)
    _ = W11 m ρ c (Proc.devRef .tc main_arg8) := by dsimp only [W12]; after_results
    _ = W10 m ρ c (Proc.devRef .tc main_arg8) := W11_of_ne m ρ c main_arg8 (by decide)
    _ = W9 m ρ c (Proc.devRef .tc main_arg8) := by dsimp only [W10]; after_results).trans (arg8_at9 m ρ c)

theorem arg9_at13 : W13 m ρ c (Proc.devRef .tc main_arg9) = (m ((c : Thread nD τ).loc main_arg9)) :=
  (calc W13 m ρ c (Proc.devRef .tc main_arg9)
    _ = W12 m ρ c (Proc.devRef .tc main_arg9) := W13_of_ne m ρ c main_arg9 (by decide)
    _ = W11 m ρ c (Proc.devRef .tc main_arg9) := by dsimp only [W12]; after_results
    _ = W10 m ρ c (Proc.devRef .tc main_arg9) := W11_of_ne m ρ c main_arg9 (by decide)
    _ = W9 m ρ c (Proc.devRef .tc main_arg9) := by dsimp only [W10]; after_results).trans (arg9_at9 m ρ c)

theorem arg10_at13 : W13 m ρ c (Proc.devRef .tc main_arg10) = (m ((c : Thread nD τ).loc main_arg10)) :=
  (calc W13 m ρ c (Proc.devRef .tc main_arg10)
    _ = W12 m ρ c (Proc.devRef .tc main_arg10) := W13_of_ne m ρ c main_arg10 (by decide)
    _ = W11 m ρ c (Proc.devRef .tc main_arg10) := by dsimp only [W12]; after_results
    _ = W10 m ρ c (Proc.devRef .tc main_arg10) := W11_of_ne m ρ c main_arg10 (by decide)
    _ = W9 m ρ c (Proc.devRef .tc main_arg10) := by dsimp only [W10]; after_results).trans (arg10_at9 m ρ c)

theorem at14_v62 : W14 m ρ c (Proc.devRef .tc main_v62) = Net.aggregated (m ((c : Thread nD τ).loc main_arg1)) (message (Net.gathered (m ((c : Thread nD τ).loc main_arg1)) (Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10))))) (Net.edges (m ((c : Thread nD τ).loc main_arg2)) (m ((c : Thread nD τ).loc main_arg5)) (m ((c : Thread nD τ).loc main_arg6)))) :=
  by
  dsimp only [W14]
  after_results
  rw [at13_v7 m ρ c, at13_v59 m ρ c]
  rfl

theorem at14_v64 : W14 m ρ c (Proc.devRef .tc main_v64) = Net.wmat2 (m ((c : Thread nD τ).loc main_arg7)) :=
  by
  dsimp only [W14]
  after_results
  rw [arg7_at13 m ρ c]
  rfl

theorem at14_v67 : W14 m ρ c (Proc.devRef .tc main_v67) = Net.brow2 (m ((c : Thread nD τ).loc main_arg8)) :=
  by
  dsimp only [W14]
  after_results
  rw [arg8_at13 m ρ c]
  rfl

theorem at14_v69 : W14 m ρ c (Proc.devRef .tc main_v69) = Net.wmat2 (m ((c : Thread nD τ).loc main_arg9)) :=
  by
  dsimp only [W14]
  after_results
  rw [arg9_at13 m ρ c]
  rfl

theorem at14_v72 : W14 m ρ c (Proc.devRef .tc main_v72) = Net.brow2 (m ((c : Thread nD τ).loc main_arg10)) :=
  by
  dsimp only [W14]
  after_results
  rw [arg10_at13 m ρ c]
  rfl

theorem at14_v51 : W14 m ρ c (Proc.devRef .tc main_v51) = Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10))) :=
  (calc W14 m ρ c (Proc.devRef .tc main_v51)
    _ = W13 m ρ c (Proc.devRef .tc main_v51) := by dsimp only [W14]; after_results).trans (at13_v51 m ρ c)

theorem at15_v73 : W15 m ρ c (Proc.devRef .tc main_v73) = Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.layer (m ((c : Thread nD τ).loc main_arg1)) (Net.edges (m ((c : Thread nD τ).loc main_arg2)) (m ((c : Thread nD τ).loc main_arg5)) (m ((c : Thread nD τ).loc main_arg6))) (Net.x0 (m ((c : Thread nD τ).loc main_arg0)) (m ((c : Thread nD τ).loc main_arg3)) (m ((c : Thread nD τ).loc main_arg4))) (Net.wmat0 (m ((c : Thread nD τ).loc main_arg7))) (Net.brow0 (m ((c : Thread nD τ).loc main_arg8))) (Net.wmat0 (m ((c : Thread nD τ).loc main_arg9))) (Net.brow0 (m ((c : Thread nD τ).loc main_arg10)))) (Net.wmat1 (m ((c : Thread nD τ).loc main_arg7))) (Net.brow1 (m ((c : Thread nD τ).loc main_arg8))) (Net.wmat1 (m ((c : Thread nD τ).loc main_arg9))) (Net.brow1 (m ((c : Thread nD τ).loc main_arg10)))) (Net.wmat2 (m ((c : Thread nD τ).loc main_arg7))) (Net.brow2 (m ((c : Thread nD τ).loc main_arg8))) (Net.wmat2 (m ((c : Thread nD τ).loc main_arg9))) (Net.brow2 (m ((c : Thread nD τ).loc main_arg10))) :=
  (W15_arr m ρ c 6).trans ((Reg7.final (V14 m ρ) c).trans (by
    rw [show V14 m ρ c main_v51 = _ from at14_v51 m ρ c,
      show V14 m ρ c main_v62 = _ from at14_v62 m ρ c,
      show V14 m ρ c main_v64 = _ from at14_v64 m ρ c,
      show V14 m ρ c main_v67 = _ from at14_v67 m ρ c,
      show V14 m ρ c main_v69 = _ from at14_v69 m ρ c,
      show V14 m ρ c main_v72 = _ from at14_v72 m ρ c]
    rfl))

/-- The result buffer ends at the network's function of the argument arrays. -/
theorem result : W15 m ρ c (Proc.devRef .tc main_v73)
    = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (at15_v73 m ρ c).trans rfl

end Cert.KernelIdeal.Chain

end
-- ==== Proof.RefSide.lean ====
/-
  The reference's result is the network's function of its arguments.

  The reference spells each layer with host operations: a `dot_general` plus a bias vector broadcast twice (to one row,
  then over the rows), and `relu` as the maximum with a broadcast zero. Read at an index each spelling is the
  specification's function: the `dot_general` is the plain sum over the contraction axis (one term for the edge
  projection), the twice-broadcast bias is the bias at the column, the broadcast zero is zero. The gather, the sum at
  the target nodes and the index arithmetic are the same operations on both sides and stay closed.
-/
import proofs.«171168_j16716012716418_1_alg».proof.Proof.Gen.ReferenceIdeal.Run
import proofs.«171168_j16716012716418_1_alg».proof.Proof.KNet

set_option maxRecDepth 16384

noncomputable section

open scoped BigOperators

namespace Cert.ReferenceIdeal.RefValue

open Cert.ReferenceIdeal Cert.ReferenceIdeal.Facts₀ Cert.ReferenceIdeal.Facts Cert.ReferenceIdeal.Value
open Idealize.ShloMosaic Idealize.ShloMosaic.TcCoe Idealize.ShloMosaic.ValueIdx Idealize.SL.Sem Cert.Gnn Cert.Lib.RowOps

/-- The input projection as the reference spells it. -/
theorem inputProj (x : FVec Ideal S50000x64 .f32) (w : FVec Ideal S64x128 .f32) (b : FVec Ideal S128 .f32) :
    addf (F := Ideal) (φ := .f32) (Host.dotGeneral (F := Ideal) (φ₁ := .f32) (φ₂ := .f32) dot_S50000x64_S64x128_S50000x128_1_0_0_1_n_n none x w)
        (broadcastInDim S50000x128 ![0, 1] bcast_S1x128_S50000x128_0_1 (broadcastInDim S1x128 ![1] bcast_S128_S1x128_1 b))
      = Cert.KernelIdeal.Net.x0 x w b :=
  hostAffine 50000 64 128 x w b bcast_S128_S1x128_1 bcast_S1x128_S50000x128_0_1 _

/-- The edge projection as the reference spells it: the contraction axis has one entry. -/
theorem edgeProj (a : FVec Ideal S600000x1 .f32) (w : FVec Ideal S1x128 .f32) (b : FVec Ideal S128 .f32) :
    addf (F := Ideal) (φ := .f32) (Host.dotGeneral (F := Ideal) (φ₁ := .f32) (φ₂ := .f32) dot_S600000x1_S1x128_S600000x128_1_0_0_1_n_n none a w)
        (broadcastInDim S600000x128 ![0, 1] bcast_S1x128_S600000x128_0_1 (broadcastInDim S1x128 ![1] bcast_S128_S1x128_1 b))
      = Cert.KernelIdeal.Net.edges a w b := by
  refine (hostAffine 600000 1 128 a w b bcast_S128_S1x128_1 bcast_S1x128_S600000x128_0_1
    Cert.KernelIdeal.Facts₀.shapeCasts_S128_S1x128).trans ?_
  funext j
  obtain ⟨p, q, rfl⟩ : ∃ (p : Fin 600000) (q : Fin 128), j = ix2 p q := ⟨j 0, j 1, eq_ix2 j⟩
  show affine 600000 1 128 a w _ (ix2 p q) = scaleRows 600000 128 a w _ (ix2 p q)
  rw [affine_ix2, scaleRows_ix2, Fin.sum_univ_one]
  rfl

/-- The message as the reference spells it. -/
theorem message_eq (g e : FVec Ideal S600000x128 .f32) :
    maximumf (F := Ideal) (φ := .f32) (addf (F := Ideal) (φ := .f32) g e) (broadcastInDim S600000x128 ![] bcast_S_S600000x128 (constant (F := Ideal) S_ .f32 0x00000000#32))
      = message g e := by
  funext j
  show max (g j + e j) _ = max (g j + e j) 0
  rw [splat_apply, Ideal.ofBits_zero_f32]

/-- The node update as the reference spells it. -/
theorem update_eq (x agg : FVec Ideal S50000x128 .f32) (w1 w2 : FVec Ideal S128x128 .f32) (b1 b2 : FVec Ideal S128 .f32) :
    maximumf (F := Ideal) (φ := .f32) (addf (F := Ideal) (φ := .f32) (Host.dotGeneral (F := Ideal) (φ₁ := .f32) (φ₂ := .f32) dot_S50000x128_S128x128_S50000x128_1_0_0_1_n_n none
        (maximumf (F := Ideal) (φ := .f32) (addf (F := Ideal) (φ := .f32) (Host.dotGeneral (F := Ideal) (φ₁ := .f32) (φ₂ := .f32) dot_S50000x128_S128x128_S50000x128_1_0_0_1_n_n none (addf (F := Ideal) (φ := .f32) x agg) w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
        (broadcastInDim S50000x128 ![0, 1] bcast_S1x128_S50000x128_0_1 (broadcastInDim S1x128 ![1] bcast_S128_S1x128_1 b2)))
      (broadcastInDim S50000x128 ![] bcast_S_S50000x128 (constant (F := Ideal) S_ .f32 0x00000000#32))
      = update 50000 128 x agg w1 (Cert.KernelIdeal.Net.biasRow b1) w2 (Cert.KernelIdeal.Net.biasRow b2) := by
  show (fun j => max (FloatOps.dotGeneral (F := Ideal) (φ₁ := .f32) (φ₂ := .f32) (DotDims.plain 50000 128 128) none .single
      (fun j' => max (FloatOps.dotGeneral (F := Ideal) (φ₁ := .f32) (φ₂ := .f32) (DotDims.plain 50000 128 128) none .single
          (fun i => x i + agg i) w1 j'
        + broadcastInDim ⟨2, ![50000, 128]⟩ ![0, 1] bcast_S1x128_S50000x128_0_1 (broadcastInDim ⟨2, ![1, 128]⟩ ![1] bcast_S128_S1x128_1 b1) j')
        (broadcastInDim ⟨2, ![50000, 128]⟩ ![] bcast_S_S50000x128 (constant (F := Ideal) ⟨0, ![]⟩ .f32 0x00000000#32) j'))
      w2 j
    + broadcastInDim ⟨2, ![50000, 128]⟩ ![0, 1] bcast_S1x128_S50000x128_0_1 (broadcastInDim ⟨2, ![1, 128]⟩ ![1] bcast_S128_S1x128_1 b2) j)
    (broadcastInDim ⟨2, ![50000, 128]⟩ ![] bcast_S_S50000x128 (constant (F := Ideal) ⟨0, ![]⟩ .f32 0x00000000#32) j)) = _
  rw [hostReluAffine 50000 128 128 (fun i => x i + agg i) w1 b1 bcast_S128_S1x128_1 bcast_S1x128_S50000x128_0_1 bcast_S_S50000x128
      Cert.KernelIdeal.Facts₀.shapeCasts_S128_S1x128,
    hostReluAffine 50000 128 128 _ w2 b2 bcast_S128_S1x128_1 bcast_S1x128_S50000x128_0_1 bcast_S_S50000x128
      Cert.KernelIdeal.Facts₀.shapeCasts_S128_S1x128]
  rfl

/-- The reference's result term is the network's function of the reference's arguments. -/
theorem result_eq (m : (ℓ : Loc nD τ sig) → Buf (Elt Ideal) ℓ) (c : Dev nD) :
    res_main_v104 (F := Ideal) m c
      = Cert.KernelIdeal.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v104
  rw [inputProj (m ((c.tc : Thread nD τ).loc main_arg0)) (m ((c.tc : Thread nD τ).loc main_arg3)) (m ((c.tc : Thread nD τ).loc main_arg4)),
    edgeProj (m ((c.tc : Thread nD τ).loc main_arg2)) (m ((c.tc : Thread nD τ).loc main_arg5)) (m ((c.tc : Thread nD τ).loc main_arg6))]
  rw [message_eq, message_eq, message_eq, update_eq, update_eq, update_eq]
  rfl

end Cert.ReferenceIdeal.RefValue

end
-- ==== Proof.lean ====
/-
  The certificate of a three-layer message-passing network on 50000 nodes and 600000 edges.

  The kernel program projects the node features and the edge attributes in two kernel regions and then, three times:
  gathers each edge's source node's features on the host, forms the messages `relu (gathered + edge features)` in a
  kernel region, adds them up at the target nodes on the host, and updates the nodes,
  `relu (relu ((x + agg) · W1 + b1) · W2 + b2)`, in a kernel region. The reference computes the same with host
  operations only.

  At the ideal values a conversion to bf16 is the identity and a product into a zero accumulator is the plain sum over
  the contraction axis, so each region's result array is the layer's function of its input arrays, block by block
  (modules `Reg0` … `Reg7` over `KPay` and the layer functions of `LibDenseLayers`), and the result buffer ends at the network's function `Net.out` of the eleven
  arguments (`KRun`, `KChain`). The reference's host spellings of the same layers are the same functions (`RefSide`);
  the gather, the sum at the target nodes and the index arithmetic are shared and never opened. No law of the extended
  reals beyond `0 + x = x` is used, so the precondition is not opened.

  The ideal pass rewrote nothing: `preserves` is `True`. The two kernel programs' frames are the generated ones; the
  reference's frame is its generated run with the result dropped.
-/
import proofs.«171168_j16716012716418_1_alg».proof.Defs
import proofs.«171168_j16716012716418_1_alg».proof.Proof.Gen.Kernel
import proofs.«171168_j16716012716418_1_alg».proof.Proof.Gen.Kernel.Frame
import proofs.«171168_j16716012716418_1_alg».proof.Proof.Gen.KernelIdeal
import proofs.«171168_j16716012716418_1_alg».proof.Proof.Gen.KernelIdeal.Frame
import proofs.«171168_j16716012716418_1_alg».proof.Proof.Gen.ReferenceIdeal
import proofs.«171168_j16716012716418_1_alg».proof.Proof.Gen.Pre_finite_inputs
import proofs.«171168_j16716012716418_1_alg».proof.Proof.Gen.ReferenceIdeal.Run
import proofs.«171168_j16716012716418_1_alg».proof.Proof.KRun
import proofs.«171168_j16716012716418_1_alg».proof.Proof.KChain
import proofs.«171168_j16716012716418_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's function of the (agreeing) arguments in their result buffers. -/
theorem algebraic : Cert.algebraic_KernelIdeal_ReferenceIdeal := by
  intro m ρ m' ρ' _ hagree
  refine ⟨fun c => Cert.KernelIdeal.Net.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
